-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x2 : Shape := ⟨2, ![8388608, 2]⟩
abbrev S2x2 : Shape := ⟨2, ![2, 2]⟩
abbrev S2 : Shape := ⟨1, ![2]⟩
abbrev S_ : Shape := ⟨0, ![]⟩

class Facts : Prop where
  bcast_S_S8388608x2 : S_.BroadcastsInDim S8388608x2 (![] : Fin 0 → Fin S8388608x2.rank)
  reducesTo_S8388608x2_S_d0_1 : S8388608x2.ReducesTo [0, 1] S_
  h_S_ : 0 < S_.numel
  bcast_S_S2x2 : S_.BroadcastsInDim S2x2 (![] : Fin 0 → Fin S2x2.rank)
  reducesTo_S2x2_S_d0_1 : S2x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg14 : FVec F S2 .f32) (main_arg15 : FVec F S2x2 .f32) (main_arg16 : FVec F S2 .f32) (main_v63 : IVec S_ 1) (main_v67 : IVec S_ 1) : IVec S_ 1 :=
  let main_v68 : IVec S_ 1 := andi main_v63 main_v67
  let main_v69 : FVec F S2 .f32 := Host.absf main_arg14
  let main_cst_26 : FVec F S_ .f32 := constant S_ .f32 0x7F800000#32
  let main_v70 : FVec F S2 .f32 := broadcastInDim S2 ![] bcast_S_S2 main_cst_26
  let main_v71 : IVec S2 1 := cmpf .olt main_v69 main_v70
  let main_c_27 : IVec S_ 1 := constantI S_ 1 1#1
  let main_v72 : IVec S_ 1 := (fun x v => Host.reduce IntOp.andi x v reducesTo_S2_S_d0 h_S_) main_v71 main_c_27
  let main_v73 : IVec S_ 1 := andi main_v68 main_v72
  let main_v74 : FVec F S2x2 .f32 := Host.absf main_arg15
  let main_cst_28 : FVec F S_ .f32 := constant S_ .f32 0x7F800000#32
  let main_v75 : FVec F S2x2 .f32 := broadcastInDim S2x2 ![] bcast_S_S2x2 main_cst_28
  let main_v76 : IVec S2x2 1 := cmpf .olt main_v74 main_v75
  let main_c_29 : IVec S_ 1 := constantI S_ 1 1#1
  let main_v77 : IVec S_ 1 := (fun x v => Host.reduce IntOp.andi x v reducesTo_S2x2_S_d0_1 h_S_) main_v76 main_c_29
  let main_v78 : IVec S_ 1 := andi main_v73 main_v77
  let main_v79 : FVec F S2 .f32 := Host.absf main_arg16
  let main_cst_30 : FVec F S_ .f32 := constant S_ .f32 0x7F800000#32
  let main_v80 : FVec F S2 .f32 := broadcastInDim S2 ![] bcast_S_S2 main_cst_30
  let main_v81 : IVec S2 1 := cmpf .olt main_v79 main_v80
  let main_c_31 : IVec S_ 1 := constantI S_ 1 1#1
  let main_v82 : IVec S_ 1 := (fun x v => Host.reduce IntOp.andi x v reducesTo_S2_S_d0 h_S_) main_v81 main_c_31
  let main_v83 : IVec S_ 1 := andi main_v78 main_v82
  main_v83

def fn_part3 {F : FTy → Type} [FloatOps F] (main_arg11 : FVec F S2x2 .f32) (main_arg12 : FVec F S2 .f32) (main_arg13 : FVec F S2x2 .f32) (main_arg14 : FVec F S2 .f32) (main_arg15 : FVec F S2x2 .f32) (main_arg16 : FVec F S2 .f32) (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  let main_v54 : FVec F S2x2 .f32 := Host.absf main_arg11
  let main_cst_20 : FVec F S_ .f32 := constant S_ .f32 0x7F800000#32
  let main_v55 : FVec F S2x2 .f32 := broadcastInDim S2x2 ![] bcast_S_S2x2 main_cst_20
  let main_v56 : IVec S2x2 1 := cmpf .olt main_v54 main_v55
  let main_c_21 : IVec S_ 1 := constantI S_ 1 1#1
  let main_v57 : IVec S_ 1 := (fun x v => Host.reduce IntOp.andi x v reducesTo_S2x2_S_d0_1 h_S_) main_v56 main_c_21
  let main_v58 : IVec S_ 1 := andi main_v53 main_v57
  let main_v59 : FVec F S2 .f32 := Host.absf main_arg12
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  let main_v64 : FVec F S2x2 .f32 := Host.absf main_arg13
  let main_cst_24 : FVec F S_ .f32 := constant S_ .f32 0x7F800000#32
  let main_v65 : FVec F S2x2 .f32 := broadcastInDim S2x2 ![] bcast_S_S2x2 main_cst_24
  let main_v66 : IVec S2x2 1 := cmpf .olt main_v64 main_v65
  let main_c_25 : IVec S_ 1 := constantI S_ 1 1#1
  let main_v67 : IVec S_ 1 := (fun x v => Host.reduce IntOp.andi x v reducesTo_S2x2_S_d0_1 h_S_) main_v66 main_c_25
  fn_part4 (F := F) main_arg14 main_arg15 main_arg16 main_v63 main_v67

def fn_part2 {F : FTy → Type} [FloatOps F] (main_arg7 : FVec F S2x2 .f32) (main_arg8 : FVec F S2 .f32) (main_arg9 : FVec F S2x2 .f32) (main_arg10 : FVec F S2 .f32) (main_arg11 : FVec F S2x2 .f32) (main_arg12 : FVec F S2 .f32) (main_arg13 : FVec F S2x2 .f32) (main_arg14 : FVec F S2 .f32) (main_arg15 : FVec F S2x2 .f32) (main_arg16 : FVec F S2 .f32) (main_v33 : IVec S_ 1) : IVec S_ 1 :=
  let main_v34 : FVec F S2x2 .f32 := Host.absf main_arg7
  let main_cst_12 : FVec F S_ .f32 := constant S_ .f32 0x7F800000#32
  let main_v35 : FVec F S2x2 .f32 := broadcastInDim S2x2 ![] bcast_S_S2x2 main_cst_12
  let main_v36 : IVec S2x2 1 := cmpf .olt main_v34 main_v35
  let main_c_13 : IVec S_ 1 := constantI S_ 1 1#1
  let main_v37 : IVec S_ 1 := (fun x v => Host.reduce IntOp.andi x v reducesTo_S2x2_S_d0_1 h_S_) main_v36 main_c_13
  let main_v38 : IVec S_ 1 := andi main_v33 main_v37
  let main_v39 : FVec F S2 .f32 := Host.absf main_arg8
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  let main_v44 : FVec F S2x2 .f32 := Host.absf main_arg9
  let main_cst_16 : FVec F S_ .f32 := constant S_ .f32 0x7F800000#32
  let main_v45 : FVec F S2x2 .f32 := broadcastInDim S2x2 ![] bcast_S_S2x2 main_cst_16
  let main_v46 : IVec S2x2 1 := cmpf .olt main_v44 main_v45
  let main_c_17 : IVec S_ 1 := constantI S_ 1 1#1
  let main_v47 : IVec S_ 1 := (fun x v => Host.reduce IntOp.andi x v reducesTo_S2x2_S_d0_1 h_S_) main_v46 main_c_17
  let main_v48 : IVec S_ 1 := andi main_v43 main_v47
  let main_v49 : FVec F S2 .f32 := Host.absf main_arg10
  let main_cst_18 : FVec F S_ .f32 := constant S_ .f32 0x7F800000#32
  let main_v50 : FVec F S2 .f32 := broadcastInDim S2 ![] bcast_S_S2 main_cst_18
  fn_part3 (F := F) main_arg11 main_arg12 main_arg13 main_arg14 main_arg15 main_arg16 main_v48 main_v49 main_v50

def fn_part1 {F : FTy → Type} [FloatOps F] (main_arg4 : FVec F S2 .f32) (main_arg5 : FVec F S2x2 .f32) (main_arg6 : FVec F S2 .f32) (main_arg7 : FVec F S2x2 .f32) (main_arg8 : FVec F S2 .f32) (main_arg9 : FVec F S2x2 .f32) (main_arg10 : FVec F S2 .f32) (main_arg11 : FVec F S2x2 .f32) (main_arg12 : FVec F S2 .f32) (main_arg13 : FVec F S2x2 .f32) (main_arg14 : FVec F S2 .f32) (main_arg15 : FVec F S2x2 .f32) (main_arg16 : FVec F S2 .f32) (main_v13 : IVec S_ 1) (main_v16 : IVec S2x2 1) : IVec S_ 1 :=
  let main_c_5 : IVec S_ 1 := constantI S_ 1 1#1
  let main_v17 : IVec S_ 1 := (fun x v => Host.reduce IntOp.andi x v reducesTo_S2x2_S_d0_1 h_S_) main_v16 main_c_5
  let main_v18 : IVec S_ 1 := andi main_v13 main_v17
  let main_v19 : FVec F S2 .f32 := Host.absf main_arg4
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  let main_v24 : FVec F S2x2 .f32 := Host.absf main_arg5
  let main_cst_8 : FVec F S_ .f32 := constant S_ .f32 0x7F800000#32
  let main_v25 : FVec F S2x2 .f32 := broadcastInDim S2x2 ![] bcast_S_S2x2 main_cst_8
  let main_v26 : IVec S2x2 1 := cmpf .olt main_v24 main_v25
  let main_c_9 : IVec S_ 1 := constantI S_ 1 1#1
  let main_v27 : IVec S_ 1 := (fun x v => Host.reduce IntOp.andi x v reducesTo_S2x2_S_d0_1 h_S_) main_v26 main_c_9
  let main_v28 : IVec S_ 1 := andi main_v23 main_v27
  let main_v29 : FVec F S2 .f32 := Host.absf main_arg6
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S8388608x2 .f32) (main_arg1 : FVec F S2x2 .f32) (main_arg2 : FVec F S2 .f32) (main_arg3 : FVec F S2x2 .f32) (main_arg4 : FVec F S2 .f32) (main_arg5 : FVec F S2x2 .f32) (main_arg6 : FVec F S2 .f32) (main_arg7 : FVec F S2x2 .f32) (main_arg8 : FVec F S2 .f32) (main_arg9 : FVec F S2x2 .f32) (main_arg10 : FVec F S2 .f32) (main_arg11 : FVec F S2x2 .f32) (main_arg12 : FVec F S2 .f32) (main_arg13 : FVec F S2x2 .f32) (main_arg14 : FVec F S2 .f32) (main_arg15 : FVec F S2x2 .f32) (main_arg16 : FVec F S2 .f32) : IVec S_ 1 :=
  let main_v0 : FVec F S8388608x2 .f32 := Host.absf main_arg0
  let main_cst : FVec F S_ .f32 := constant S_ .f32 0x7F800000#32
  let main_v1 : FVec F S8388608x2 .f32 := broadcastInDim S8388608x2 ![] bcast_S_S8388608x2 main_cst
  let main_v2 : IVec S8388608x2 1 := cmpf .olt main_v0 main_v1
  let main_c : IVec S_ 1 := constantI S_ 1 1#1
  let main_v3 : IVec S_ 1 := (fun x v => Host.reduce IntOp.andi x v reducesTo_S8388608x2_S_d0_1 h_S_) main_v2 main_c
  let main_v4 : FVec F S2x2 .f32 := Host.absf main_arg1
  let main_cst_0 : FVec F S_ .f32 := constant S_ .f32 0x7F800000#32
  let main_v5 : FVec F S2x2 .f32 := broadcastInDim S2x2 ![] bcast_S_S2x2 main_cst_0
  let main_v6 : IVec S2x2 1 := cmpf .olt main_v4 main_v5
  let main_c_1 : IVec S_ 1 := constantI S_ 1 1#1
  let main_v7 : IVec S_ 1 := (fun x v => Host.reduce IntOp.andi x v reducesTo_S2x2_S_d0_1 h_S_) main_v6 main_c_1
  let main_v8 : IVec S_ 1 := andi main_v3 main_v7
  let main_v9 : FVec F S2 .f32 := Host.absf main_arg2
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  let main_v14 : FVec F S2x2 .f32 := Host.absf main_arg3
  let main_cst_4 : FVec F S_ .f32 := constant S_ .f32 0x7F800000#32
  let main_v15 : FVec F S2x2 .f32 := broadcastInDim S2x2 ![] bcast_S_S2x2 main_cst_4
  let main_v16 : IVec S2x2 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S8388608x2 : Shape := ⟨2, ![8388608, 2]⟩
abbrev S2x2 : Shape := ⟨2, ![2, 2]⟩
abbrev S2 : Shape := ⟨1, ![2]⟩
abbrev S4096x2 : Shape := ⟨2, ![4096, 2]⟩
abbrev S4096x1 : Shape := ⟨2, ![4096, 1]⟩
abbrev S4096 : Shape := ⟨1, ![4096]⟩
abbrev S1x1 : Shape := ⟨2, ![1, 1]⟩
abbrev S1 : Shape := ⟨1, ![1]⟩

abbrev nBuf : Space → Nat
  | .hbm => 18
  | .vmem => 20
  | .smem => 0
  | _ => 0

abbrev bufTy : (tb : Table) → Fin (tcTables nBuf tb) → BufTy
  | .hbm, ⟨0, _⟩ => ⟨S8388608x2, .f32⟩
  | .hbm, ⟨1, _⟩ => ⟨S2x2, .f32⟩
  | .hbm, ⟨2, _⟩ => ⟨S2, .f32⟩
  | .hbm, ⟨3, _⟩ => ⟨S2x2, .f32⟩
  | .hbm, ⟨4, _⟩ => ⟨S2, .f32⟩
  | .hbm, ⟨5, _⟩ => ⟨S2x2, .f32⟩
  | .hbm, ⟨6, _⟩ => ⟨S2, .f32⟩
  | .hbm, ⟨7, _⟩ => ⟨S2x2, .f32⟩
  | .hbm, ⟨8, _⟩ => ⟨S2, .f32⟩
  | .hbm, ⟨9, _⟩ => ⟨S2x2, .f32⟩
  | .hbm, ⟨10, _⟩ => ⟨S2, .f32⟩
  | .hbm, ⟨11, _⟩ => ⟨S2x2, .f32⟩
  | .hbm, ⟨12, _⟩ => ⟨S2, .f32⟩
  | .hbm, ⟨13, _⟩ => ⟨S2x2, .f32⟩
  | .hbm, ⟨14, _⟩ => ⟨S2, .f32⟩
  | .hbm, ⟨15, _⟩ => ⟨S2x2, .f32⟩
  | .hbm, ⟨16, _⟩ => ⟨S2, .f32⟩
  | .hbm, ⟨17, _⟩ => ⟨S8388608x2, .f32⟩
  | .local _ .vmem, ⟨0, _⟩ => ⟨S4096x2, .f32⟩
  | .local _ .vmem, ⟨1, _⟩ => ⟨S4096x2, .f32⟩
  | .local _ .vmem, ⟨2, _⟩ => ⟨S2x2, .f32⟩
  | .local _ .vmem, ⟨3, _⟩ => ⟨S2, .f32⟩
  | .local _ .vmem, ⟨4, _⟩ => ⟨S2x2, .f32⟩
  | .local _ .vmem, ⟨5, _⟩ => ⟨S2, .f32⟩
  | .local _ .vmem, ⟨6, _⟩ => ⟨S2x2, .f32⟩
  | .local _ .vmem, ⟨7, _⟩ => ⟨S2, .f32⟩
  | .local _ .vmem, ⟨8, _⟩ => ⟨S2x2, .f32⟩
  | .local _ .vmem, ⟨9, _⟩ => ⟨S2, .f32⟩
  | .local _ .vmem, ⟨10, _⟩ => ⟨S2x2, .f32⟩
  | .local _ .vmem, ⟨11, _⟩ => ⟨S2, .f32⟩
  | .local _ .vmem, ⟨12, _⟩ => ⟨S2x2, .f32⟩
  | .local _ .vmem, ⟨13, _⟩ => ⟨S2, .f32⟩
  | .local _ .vmem, ⟨14, _⟩ => ⟨S2x2, .f32⟩
  | .local _ .vmem, ⟨15, _⟩ => ⟨S2, .f32⟩
  | .local _ .vmem, ⟨16, _⟩ => ⟨S2x2, .f32⟩
  | .local _ .vmem, ⟨17, _⟩ => ⟨S2, .f32⟩
  | .local _ .vmem, ⟨18, _⟩ => ⟨S4096x2, .f32⟩
  | .local _ .vmem, ⟨19, _⟩ => ⟨S4096x2, .f32⟩
  | _, _ => ⟨S8388608x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19

abbrev nD : Nat := 1
abbrev τ : Topo := Topo.v7x

variable {F : FTy → Type} [FloatOps F]

abbrev grid0 : Pipeline.Grid := ⟨1, ![2048], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x2 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x2 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x2 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2x2 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S4096x2 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  inb_S4096x2_S4096x1_0_0 : ∀ a, (![0, 0] : Fin 2 → Nat) a + S4096x1.size a ≤ S4096x2.size a
  h_S4096x1 : 0 < S4096x1.numel
  shapeCasts_S4096x1_S4096 : S4096x1.ShapeCasts S4096
  inb_S4096x2_S4096x1_0_1 : ∀ a, (![0, 1] : Fin 2 → Nat) a + S4096x1.size a ≤ S4096x2.size a
  inb_S2x2_S2x2_0_0 : ∀ a, (![0, 0] : Fin 2 → Nat) a + S2x2.size a ≤ S2x2.size a
  h_S2x2 : 0 < S2x2.numel
  inb_S2_S2_0 : ∀ a, (![0] : Fin 1 → Nat) a + S2.size a ≤ S2.size a
  h_S2 : 0 < S2.numel
  slices_S2x2_o0_0_S1x1 : S2x2.Slices ![0, 0] S1x1
  inpos_S1x1_p0_0 : ∀ a, (![0, 0] : Fin 2 → Nat) a < S1x1.size a
  slices_S2x2_o0_1_S1x1 : S2x2.Slices ![0, 1] S1x1
  slices_S2_o0_S1 : S2.Slices ![0] S1
  inpos_S1_p0 : ∀ a, (![0] : Fin 1 → Nat) a < S1.size a
  slices_S2x2_o1_0_S1x1 : S2x2.Slices ![1, 0] S1x1
  slices_S2x2_o1_1_S1x1 : S2x2.Slices ![1, 1] S1x1
  slices_S2_o1_S1 : S2.Slices ![1] S1
  shapeCasts_S4096_S4096x1 : S4096.ShapeCasts S4096x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x2.size a ≤ S8388608x2.size a
  hwx0_0 : ∀ i : grid0.Coords, EltTy.bits .f32 = 32 ∨ (Rect.block (s := S8388608x2) S4096x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x2.size a ≤ S2x2.size a
  hwx0_1 : ∀ i : grid0.Coords, EltTy.bits .f32 = 32 ∨ (Rect.block (s := S2x2) S2x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2.size a ≤ S2.size a
  hwx0_2 : ∀ i : grid0.Coords, EltTy.bits .f32 = 32 ∨ (Rect.block (s := S2) S2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x2.size a ≤ S2x2.size a
  hwx0_3 : ∀ i : grid0.Coords, EltTy.bits .f32 = 32 ∨ (Rect.block (s := S2x2) S2x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2.size a ≤ S2.size a
  hwx0_4 : ∀ i : grid0.Coords, EltTy.bits .f32 = 32 ∨ (Rect.block (s := S2) S2.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x2.size a ≤ S2x2.size a
  hwx0_5 : ∀ i : grid0.Coords, EltTy.bits .f32 = 32 ∨ (Rect.block (s := S2x2) S2x2.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2.size a ≤ S2.size a
  hwx0_6 : ∀ i : grid0.Coords, EltTy.bits .f32 = 32 ∨ (Rect.block (s := S2) S2.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2x2.size a ≤ S2x2.size a
  hwx0_7 : ∀ i : grid0.Coords, EltTy.bits .f32 = 32 ∨ (Rect.block (s := S2x2) S2x2.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2.size a ≤ S2.size a
  hwx0_8 : ∀ i : grid0.Coords, EltTy.bits .f32 = 32 ∨ (Rect.block (s := S2) S2.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2x2.size a ≤ S2x2.size a
  hwx0_9 : ∀ i : grid0.Coords, EltTy.bits .f32 = 32 ∨ (Rect.block (s := S2x2) S2x2.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S2.size a ≤ S2.size a
  hwx0_10 : ∀ i : grid0.Coords, EltTy.bits .f32 = 32 ∨ (Rect.block (s := S2) S2.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S2x2.size a ≤ S2x2.size a
  hwx0_11 : ∀ i : grid0.Coords, EltTy.bits .f32 = 32 ∨ (Rect.block (s := S2x2) S2x2.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S2.size a ≤ S2.size a
  hwx0_12 : ∀ i : grid0.Coords, EltTy.bits .f32 = 32 ∨ (Rect.block (s := S2) S2.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S2x2.size a ≤ S2x2.size a
  hwx0_13 : ∀ i : grid0.Coords, EltTy.bits .f32 = 32 ∨ (Rect.block (s := S2x2) S2x2.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S2.size a ≤ S2.size a
  hwx0_14 : ∀ i : grid0.Coords, EltTy.bits .f32 = 32 ∨ (Rect.block (s := S2) S2.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S2x2.size a ≤ S2x2.size a
  hwx0_15 : ∀ i : grid0.Coords, EltTy.bits .f32 = 32 ∨ (Rect.block (s := S2x2) S2x2.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S2.size a ≤ S2.size a
  hwx0_16 : ∀ i : grid0.Coords, EltTy.bits .f32 = 32 ∨ (Rect.block (s := S2) S2.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S4096x2.size a ≤ S8388608x2.size a
  hwx0_17 : ∀ i : grid0.Coords, EltTy.bits .f32 = 32 ∨ (Rect.block (s := S8388608x2) S4096x2.size (cc0_transform_17 i) (hinb0_17 i)).WholeWords (EltTy.packing .f32)

variable [Facts₀]

abbrev win0_0 : Pipeline.Window sig grid0 :=
  Pipeline.Window.ofSpec (Memref.whole main_arg0) S4096x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2x2.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S2x2.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S2.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S2x2.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S2.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S2x2.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S2.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S2x2.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S2.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S2x2.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S2.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v0) S4096x2.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S8388608x2 : Shape := ⟨2, ![8388608, 2]⟩
abbrev S2x2 : Shape := ⟨2, ![2, 2]⟩
abbrev S2 : Shape := ⟨1, ![2]⟩
abbrev S1x2 : Shape := ⟨2, ![1, 2]⟩
abbrev S_ : Shape := ⟨0, ![]⟩

abbrev nBuf : Space → Nat
  | .hbm => 90
  | .vmem => 0
  | .smem => 0
  | _ => 0

abbrev bufTy : (tb : Table) → Fin (tcTables nBuf tb) → BufTy
  | .hbm, ⟨0, _⟩ => ⟨S8388608x2, .f32⟩
  | .hbm, ⟨1, _⟩ => ⟨S2x2, .f32⟩
  | .hbm, ⟨2, _⟩ => ⟨S2, .f32⟩
  | .hbm, ⟨3, _⟩ => ⟨S2x2, .f32⟩
  | .hbm, ⟨4, _⟩ => ⟨S2, .f32⟩
  | .hbm, ⟨5, _⟩ => ⟨S2x2, .f32⟩
  | .hbm, ⟨6, _⟩ => ⟨S2, .f32⟩
  | .hbm, ⟨7, _⟩ => ⟨S2x2, .f32⟩
  | .hbm, ⟨8, _⟩ => ⟨S2, .f32⟩
  | .hbm, ⟨9, _⟩ => ⟨S2x2, .f32⟩
  | .hbm, ⟨10, _⟩ => ⟨S2, .f32⟩
  | .hbm, ⟨11, _⟩ => ⟨S2x2, .f32⟩
  | .hbm, ⟨12, _⟩ => ⟨S2, .f32⟩
  | .hbm, ⟨13, _⟩ => ⟨S2x2, .f32⟩
  | .hbm, ⟨14, _⟩ => ⟨S2, .f32⟩
  | .hbm, ⟨15, _⟩ => ⟨S2x2, .f32⟩
  | .hbm, ⟨16, _⟩ => ⟨S2, .f32⟩
  | .hbm, ⟨17, _⟩ => ⟨S2x2, .f32⟩
  | .hbm, ⟨18, _⟩ => ⟨S8388608x2, .f32⟩
  | .hbm, ⟨19, _⟩ => ⟨S1x2, .f32⟩
  | .hbm, ⟨20, _⟩ => ⟨S8388608x2, .f32⟩
  | .hbm, ⟨21, _⟩ => ⟨S8388608x2, .f32⟩
  | .hbm, ⟨22, _⟩ => ⟨S_, .f32⟩
  | .hbm, ⟨23, _⟩ => ⟨S8388608x2, .f32⟩
  | .hbm, ⟨24, _⟩ => ⟨S8388608x2, .f32⟩
  | .hbm, ⟨25, _⟩ => ⟨S2x2, .f32⟩
  | .hbm, ⟨26, _⟩ => ⟨S8388608x2, .f32⟩
  | .hbm, ⟨27, _⟩ => ⟨S1x2, .f32⟩
  | .hbm, ⟨28, _⟩ => ⟨S8388608x2, .f32⟩
  | .hbm, ⟨29, _⟩ => ⟨S8388608x2, .f32⟩
  | .hbm, ⟨30, _⟩ => ⟨S_, .f32⟩
  | .hbm, ⟨31, _⟩ => ⟨S8388608x2, .f32⟩
  | .hbm, ⟨32, _⟩ => ⟨S8388608x2, .f32⟩
  | .hbm, ⟨33, _⟩ => ⟨S2x2, .f32⟩
  | .hbm, ⟨34, _⟩ => ⟨S8388608x2, .f32⟩
  | .hbm, ⟨35, _⟩ => ⟨S1x2, .f32⟩
  | .hbm, ⟨36, _⟩ => ⟨S8388608x2, .f32⟩
  | .hbm, ⟨37, _⟩ => ⟨S8388608x2, .f32⟩
  | .hbm, ⟨38, _⟩ => ⟨S_, .f32⟩
  | .hbm, ⟨39, _⟩ => ⟨S8388608x2, .f32⟩
  | .hbm, ⟨40, _⟩ => ⟨S8388608x2, .f32⟩
  | .hbm, ⟨41, _⟩ => ⟨S8388608x2, .f32⟩
  | .hbm, ⟨42, _⟩ => ⟨S2x2, .f32⟩
  | .hbm, ⟨43, _⟩ => ⟨S8388608x2, .f32⟩
  | .hbm, ⟨44, _⟩ => ⟨S1x2, .f32⟩
  | .hbm, ⟨45, _⟩ => ⟨S8388608x2, .f32⟩
  | .hbm, ⟨46, _⟩ => ⟨S8388608x2, .f32⟩
  | .hbm, ⟨47, _⟩ => ⟨S_, .f32⟩
  | .hbm, ⟨48, _⟩ => ⟨S8388608x2, .f32⟩
  | .hbm, ⟨49, _⟩ => ⟨S8388608x2, .f32⟩
  | .hbm, ⟨50, _⟩ => ⟨S2x2, .f32⟩
  | .hbm, ⟨51, _⟩ => ⟨S8388608x2, .f32⟩
  | .hbm, ⟨52, _⟩ => ⟨S1x2, .f32⟩
  | .hbm, ⟨53, _⟩ => ⟨S8388608x2, .f32⟩
  | .hbm, ⟨54, _⟩ => ⟨S8388608x2, .f32⟩
  | .hbm, ⟨55, _⟩ => ⟨S_, .f32⟩
  | .hbm, ⟨56, _⟩ => ⟨S8388608x2, .f32⟩
  | .hbm, ⟨57, _⟩ => ⟨S8388608x2, .f32⟩
  | .hbm, ⟨58, _⟩ => ⟨S8388608x2, .f32⟩
  | .hbm, ⟨59, _⟩ => ⟨S2x2, .f32⟩
  | .hbm, ⟨60, _⟩ => ⟨S8388608x2, .f32⟩
  | .hbm, ⟨61, _⟩ => ⟨S1x2, .f32⟩
  | .hbm, ⟨62, _⟩ => ⟨S8388608x2, .f32⟩
  | .hbm, ⟨63, _⟩ => ⟨S8388608x2, .f32⟩
  | .hbm, ⟨64, _⟩ => ⟨S_, .f32⟩
  | .hbm, ⟨65, _⟩ => ⟨S8388608x2, .f32⟩
  | .hbm, ⟨66, _⟩ => ⟨S8388608x2, .f32⟩
  | .hbm, ⟨67, _⟩ => ⟨S2x2, .f32⟩
  | .hbm, ⟨68, _⟩ => ⟨S8388608x2, .f32⟩
  | .hbm, ⟨69, _⟩ => ⟨S1x2, .f32⟩
  | .hbm, ⟨70, _⟩ => ⟨S8388608x2, .f32⟩
  | .hbm, ⟨71, _⟩ => ⟨S8388608x2, .f32⟩
  | .hbm, ⟨72, _⟩ => ⟨S_, .f32⟩
  | .hbm, ⟨73, _⟩ => ⟨S8388608x2, .f32⟩
  | .hbm, ⟨74, _⟩ => ⟨S8388608x2, .f32⟩
  | .hbm, ⟨75, _⟩ => ⟨S8388608x2, .f32⟩
  | .hbm, ⟨76, _⟩ => ⟨S2x2, .f32⟩
  | .hbm, ⟨77, _⟩ => ⟨S8388608x2, .f32⟩
  | .hbm, ⟨78, _⟩ => ⟨S1x2, .f32⟩
  | .hbm, ⟨79, _⟩ => ⟨S8388608x2, .f32⟩
  | .hbm, ⟨80, _⟩ => ⟨S8388608x2, .f32⟩
  | .hbm, ⟨81, _⟩ => ⟨S2x2, .f32⟩
  | .hbm, ⟨82, _⟩ => ⟨S8388608x2, .f32⟩
  | .hbm, ⟨83, _⟩ => ⟨S1x2, .f32⟩
  | .hbm, ⟨84, _⟩ => ⟨S8388608x2, .f32⟩
  | .hbm, ⟨85, _⟩ => ⟨S8388608x2, .f32⟩
  | .hbm, ⟨86, _⟩ => ⟨S8388608x2, .f32⟩
  | .hbm, ⟨87, _⟩ => ⟨S_, .f32⟩
  | .hbm, ⟨88, _⟩ => ⟨S8388608x2, .f32⟩
  | .hbm, ⟨89, _⟩ => ⟨S8388608x2, .f32⟩
  | _, _ => ⟨S8388608x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_call0_cst : Ref sig .tc := ⟨.hbm, 22, rfl⟩
abbrev main_call0_v0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_call1_cst : Ref sig .tc := ⟨.hbm, 30, rfl⟩
abbrev main_call1_v0 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_call2_cst : Ref sig .tc := ⟨.hbm, 38, rfl⟩
abbrev main_call2_v0 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_call3_cst : Ref sig .tc := ⟨.hbm, 47, rfl⟩
abbrev main_call3_v0 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_call4_cst : Ref sig .tc := ⟨.hbm, 55, rfl⟩
abbrev main_call4_v0 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_call5_cst : Ref sig .tc := ⟨.hbm, 64, rfl⟩
abbrev main_call5_v0 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_call6_cst : Ref sig .tc := ⟨.hbm, 72, rfl⟩
abbrev main_call6_v0 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_call7_cst : Ref sig .tc := ⟨.hbm, 87, rfl⟩
abbrev main_call7_v0 : Ref sig .tc := ⟨.hbm, 88, rfl⟩
abbrev main_v56 : Ref sig .tc := ⟨.hbm, 89, rfl⟩

abbrev nD : Nat := 1
abbrev τ : Topo := Topo.v7x

variable {F : FTy → Type} [FloatOps F]

class Facts₀ : Prop where
  transposes_S2x2_S2x2_1_0 : S2x2.Transposes [1, 0] S2x2
  bcast_S2_S1x2_1 : S2.BroadcastsInDim S1x2 (![1] : Fin 1 → Fin S1x2.rank)
  bcast_S1x2_S8388608x2_0_1 : S1x2.BroadcastsInDim S8388608x2 (![0, 1] : Fin 2 → Fin S8388608x2.rank)
  bcast_S_S8388608x2 : S_.BroadcastsInDim S8388608x2 (![] : Fin 0 → Fin S8388608x2.rank)
  dot_S8388608x2_S2x2_S8388608x2_1_0_0_1_n_n_wf : DotDims.WF S8388608x2 S2x2 S8388608x2 [1] [0] [0] [1] [] []

variable [Facts₀]

def dot_S8388608x2_S2x2_S8388608x2_1_0_0_1_n_n : DotDims S8388608x2 S2x2 S8388608x2 where
  lhsContracting := [1]
  rhsContracting := [0]
  lhsNonContracting := [0]
  rhsNonContracting := [1]
  lhsBatch := []
  rhsBatch := []
  wf := dot_S8388608x2_S2x2_S8388608x2_1_0_0_1_n_n_wf

class Facts : Prop extends Facts₀ where

variable [Facts]
-- ==== Proof.RowNet.lean ====
/-
  A two-wide network applied to every row of an N×2 array on its own.

  A row `x = (x₀, x₁)` of extended reals goes through affine maps `u ↦ W u + b` (W a 2×2 matrix stored
  entry (out, in), b a 2-vector) and rectifiers `u ↦ max u 0`:

      v    = relu (A₃ (relu (A₂ (relu (A₁ x))))) + x                       the trunk, with its skip
      l    = relu (A₅ (relu (A₄ v))) + v          r = relu (A₇ (relu (A₆ v))) + v      two branches off v
      out  = relu (A₈ l + A₈ r)                                             one shared map on both, summed

  Entry j of an affine map is `u₀·W[j,0] + u₁·W[j,1] + b[j]`, added in exactly this order: both programs
  compared against this specification add in this order, so no law of the extended reals beyond
  `∑ k : Fin 2, f k = f 0 + f 1` is ever needed and no finiteness of the inputs is used.
  The zero of the rectifier is kept as the f32 pattern it is written with in both programs; it is never evaluated.
-/
import Idealize.ShloMosaic.Lib.ValueIdx
import Idealize.ShloMosaic.PureOps.Ideal

noncomputable section

namespace Cert.RowNet

open Idealize.ShloMosaic Idealize.ShloMosaic.ValueIdx

/-- A row of the array: its two entries. -/
abbrev Row := Fin 2 → EReal
/-- A 2×2 weight matrix, entry (out, in). -/
abbrev Mat := (⟨2, ![2, 2]⟩ : Shape).Idx → EReal
/-- A bias, one entry per output. -/
abbrev Bias := (⟨1, ![2]⟩ : Shape).Idx → EReal

/-- The rectifier's threshold: the f32 pattern of +0. -/
def zero : EReal := Ideal.ofBits .f32 0x00000000#32

/-- The affine map `u ↦ W u + b`: entry `j` is `u₀·W[j,0] + u₁·W[j,1] + b[j]`. -/
def lin (W : Mat) (b : Bias) (u : Row) : Row := fun j => u 0 * W (ix2 j 0) + u 1 * W (ix2 j 1) + b (ix1 j)

/-- The rectifier, entry by entry. -/
def relu (u : Row) : Row := fun j => max (u j) zero

/-- The sum of two rows, entry by entry. -/
def add (u v : Row) : Row := fun j => u j + v j

/-- The eight affine maps of the network. -/
structure Params where
  W1 : Mat
  b1 : Bias
  W2 : Mat
  b2 : Bias
  W3 : Mat
  b3 : Bias
  W4 : Mat
  b4 : Bias
  W5 : Mat
  b5 : Bias
  W6 : Mat
  b6 : Bias
  W7 : Mat
  b7 : Bias
  W8 : Mat
  b8 : Bias

/-- Three rectified affine maps and the skip connection. -/
def trunk (P : Params) (x : Row) : Row :=
  add (relu (lin P.W3 P.b3 (relu (lin P.W2 P.b2 (relu (lin P.W1 P.b1 x)))))) x

/-- The first branch off the trunk's value `v`: two rectified affine maps and the skip. -/
def left (P : Params) (v : Row) : Row := add (relu (lin P.W5 P.b5 (relu (lin P.W4 P.b4 v)))) v

/-- The second branch. -/
def right (P : Params) (v : Row) : Row := add (relu (lin P.W7 P.b7 (relu (lin P.W6 P.b6 v)))) v

/-- The whole network on one row: the shared last map on both branches, summed and rectified. -/
def net (P : Params) (x : Row) : Row :=
  relu (add (lin P.W8 P.b8 (left P (trunk P x))) (lin P.W8 P.b8 (right P (trunk P x))))

/-- Row `p` of an n×2 array. -/
def rowOf {n : Nat} (X : (⟨2, ![n, 2]⟩ : Shape).Idx → EReal) (p : Fin n) : Row := fun k => X (ix2 p k)

/-- The network applied to every row of an n×2 array: entry `(p, j)` is entry `j` of the network's value at row `p`. -/
def onRows {n : Nat} (P : Params) (X : (⟨2, ![n, 2]⟩ : Shape).Idx → EReal) : (⟨2, ![n, 2]⟩ : Shape).Idx → EReal :=
  fun i => net P (rowOf X (i 0)) (i 1)

theorem onRows_apply {n : Nat} (P : Params) (X : (⟨2, ![n, 2]⟩ : Shape).Idx → EReal) (p : Fin n) (j : Fin 2) :
    onRows P X (ix2 p j) = net P (rowOf X p) j := rfl

end Cert.RowNet

end
-- ==== Proof.KernelCols.lean ====
/-
  The kernel's body read row by row.

  The body works on the two columns of its 4096×2 block of `x` as two vectors of 4096 entries: it reads each weight as a scalar
  out of its 2×2 (or 2-entry) operand, spreads it down the rows, and forms `u₀·W[j,0] + u₁·W[j,1] + b[j]` and maxima with
  zero entry by entry; the two result columns are stored side by side. Entry `p` of every intermediate column is therefore
  an entry of the specification's network at row `p` of the block, and the block the body leaves is the network applied
  to every row of the block of `x` it loaded.
-/
import proofs.«102312_j29884382446070_2_alg».proof.Proof.Gen.KernelIdeal.Frame
import proofs.«102312_j29884382446070_2_alg».proof.Proof.RowNet
import Idealize.ShloMosaic.Lib.Pipeline.Value
import Idealize.ShloMosaic.Lib.ValueIdx

noncomputable section

namespace Cert.KernelIdeal.Rows

open Cert.KernelIdeal Cert.KernelIdeal.Gen Idealize.ShloMosaic Idealize.ShloMosaic.ValueIdx
open Cert.RowNet

/-- A column of the block: 4096 extended reals. -/
abbrev Col := FVec Ideal S4096 .f32

/-! ## Layout: columns as vectors, weights as scalars -/

/-- A 4096×1 column re-laid as a vector reads, at `p`, the column's entry `(p, 0)`. -/
theorem column_as_vector (x : Vec Ideal S4096x1 .f32) (p : Fin 4096) :
    shapeCast S4096 x shapeCasts_S4096x1_S4096 (ix1 p) = x (ix2 p 0) :=
  shapeCast_apply x _ _ _ (by
    rw [Shape.rowMajor_val_two, Shape.rowMajor_val_one]
    show p.val * 1 + 0 = p.val
    omega)

/-- A vector re-laid as a 4096×1 column reads, at `(p, u)`, the vector's entry `p`. -/
theorem vector_as_column (v : Col) (p : Fin 4096) (u : Fin 1) :
    shapeCast S4096x1 v shapeCasts_S4096_S4096x1 (ix2 p u) = v (ix1 p) :=
  shapeCast_apply v _ _ _ (by
    have hu : u.val = 0 := by omega
    rw [Shape.rowMajor_val_two, Shape.rowMajor_val_one]
    show p.val = p.val * 1 + u.val
    omega)

/-- The scalar the body cuts out of a 2×2 operand at (0, 0) is its entry (0, 0); -/
theorem weight00 (W : Mat) : extractAt ![0, 0] (extractStridedSlice S1x1 ![0, 0] W slices_S2x2_o0_0_S1x1) inpos_S1x1_p0_0 = W (ix2 0 0) :=
  congrArg W (funext fun a => Fin.ext (by match a with | ⟨0, _⟩ => rfl | ⟨1, _⟩ => rfl))
/-- at (0, 1), its entry (0, 1); -/
theorem weight01 (W : Mat) : extractAt ![0, 0] (extractStridedSlice S1x1 ![0, 1] W slices_S2x2_o0_1_S1x1) inpos_S1x1_p0_0 = W (ix2 0 1) :=
  congrArg W (funext fun a => Fin.ext (by match a with | ⟨0, _⟩ => rfl | ⟨1, _⟩ => rfl))
/-- at (1, 0), its entry (1, 0); -/
theorem weight10 (W : Mat) : extractAt ![0, 0] (extractStridedSlice S1x1 ![1, 0] W slices_S2x2_o1_0_S1x1) inpos_S1x1_p0_0 = W (ix2 1 0) :=
  congrArg W (funext fun a => Fin.ext (by match a with | ⟨0, _⟩ => rfl | ⟨1, _⟩ => rfl))
/-- at (1, 1), its entry (1, 1). -/
theorem weight11 (W : Mat) : extractAt ![0, 0] (extractStridedSlice S1x1 ![1, 1] W slices_S2x2_o1_1_S1x1) inpos_S1x1_p0_0 = W (ix2 1 1) :=
  congrArg W (funext fun a => Fin.ext (by match a with | ⟨0, _⟩ => rfl | ⟨1, _⟩ => rfl))
/-- The scalar cut out of a 2-entry operand at 0 is its entry 0; -/
theorem bias0 (b : Bias) : extractAt ![0] (extractStridedSlice S1 ![0] b slices_S2_o0_S1) inpos_S1_p0 = b (ix1 0) :=
  congrArg b (funext fun a => Fin.ext (by match a with | ⟨0, _⟩ => rfl))
/-- at 1, its entry 1. -/
theorem bias1 (b : Bias) : extractAt ![0] (extractStridedSlice S1 ![1] b slices_S2_o1_S1) inpos_S1_p0 = b (ix1 1) :=
  congrArg b (funext fun a => Fin.ext (by match a with | ⟨0, _⟩ => rfl))

/-! ## The body's values, entry by entry

Each is one of the body's intermediate columns (or, for the last two, stored columns) as the printed operations
compute it from the columns and operands before it. -/

theorem pay1_apply (v0 : Vec Ideal S4096x1 .f32) (p : Fin 4096) : k0_pay1 v0 (ix1 p) = v0 (ix2 p 0) :=
  column_as_vector v0 p

theorem pay2_apply (v2 : Vec Ideal S4096x1 .f32) (p : Fin 4096) : k0_pay2 v2 (ix1 p) = v2 (ix2 p 0) :=
  column_as_vector v2 p

theorem pay3_apply (v0 v2 : Vec Ideal S4096x1 .f32) (W : Mat) (b : Bias) (i : S4096.Idx) :
    k0_pay3 v0 v2 W b i = max (k0_pay1 v0 i * W (ix2 0 0) + k0_pay2 v2 i * W (ix2 0 1) + b (ix1 0)) zero := by
  unfold k0_pay3
  simp only [weight00, weight01, weight10, weight11, bias0, bias1, mulf_apply, addf_apply, maximumf_apply, broadcast_apply]
  rfl

theorem pay4_apply (v0 v2 : Vec Ideal S4096x1 .f32) (W : Mat) (b : Bias) (i : S4096.Idx) :
    k0_pay4 v0 v2 W b i = max (k0_pay1 v0 i * W (ix2 1 0) + k0_pay2 v2 i * W (ix2 1 1) + b (ix1 1)) zero := by
  unfold k0_pay4
  simp only [weight00, weight01, weight10, weight11, bias0, bias1, mulf_apply, addf_apply, maximumf_apply, broadcast_apply]
  rfl

theorem pay5_apply (v0 v2 : Vec Ideal S4096x1 .f32) (W : Mat) (b : Bias) (W' : Mat) (i : S4096.Idx) :
    k0_pay5 v0 v2 W b W' i = k0_pay3 v0 v2 W b i * W' (ix2 0 0) + k0_pay4 v0 v2 W b i * W' (ix2 0 1) := by
  unfold k0_pay5
  simp only [weight00, weight01, weight10, weight11, bias0, bias1, mulf_apply, addf_apply, maximumf_apply, broadcast_apply]

theorem pay6_apply (b : Bias) (v46 : Col) (i : S4096.Idx) :
    k0_pay6 b v46 i = max (v46 i + b (ix1 0)) zero := by
  unfold k0_pay6
  simp only [weight00, weight01, weight10, weight11, bias0, bias1, mulf_apply, addf_apply, maximumf_apply, broadcast_apply]
  rfl

theorem pay7_apply (v33 v35 : Col) (W : Mat) (b : Bias) (i : S4096.Idx) :
    k0_pay7 v33 v35 W b i = max (v33 i * W (ix2 1 0) + v35 i * W (ix2 1 1) + b (ix1 1)) zero := by
  unfold k0_pay7
  simp only [weight00, weight01, weight10, weight11, bias0, bias1, mulf_apply, addf_apply, maximumf_apply, broadcast_apply]
  rfl

theorem pay8_apply (v33 v35 : Col) (W : Mat) (b : Bias) (v46 : Col) (W' : Mat) (b' : Bias) (i : S4096.Idx) :
    k0_pay8 v33 v35 W b v46 W' b' i
      = max (k0_pay6 b v46 i * W' (ix2 0 0) + k0_pay7 v33 v35 W b i * W' (ix2 0 1) + b' (ix1 0)) zero := by
  unfold k0_pay8
  simp only [weight00, weight01, weight10, weight11, bias0, bias1, mulf_apply, addf_apply, maximumf_apply, broadcast_apply]
  rfl

theorem pay9_apply (v33 v35 : Col) (W : Mat) (b : Bias) (v46 : Col) (W' : Mat) (b' : Bias) (i : S4096.Idx) :
    k0_pay9 v33 v35 W b v46 W' b' i
      = max (k0_pay6 b v46 i * W' (ix2 1 0) + k0_pay7 v33 v35 W b i * W' (ix2 1 1) + b' (ix1 1)) zero := by
  unfold k0_pay9
  simp only [weight00, weight01, weight10, weight11, bias0, bias1, mulf_apply, addf_apply, maximumf_apply, broadcast_apply]
  rfl

theorem pay10_apply (v1 v97 : Col) (i : S4096.Idx) : k0_pay10 v1 v97 i = v97 i + v1 i := rfl

theorem pay11_apply (v3 v99 : Col) (i : S4096.Idx) : k0_pay11 v3 v99 i = v99 i + v3 i := rfl

theorem pay12_apply (v1 v3 v97 v99 : Col) (W : Mat) (b : Bias) (i : S4096.Idx) :
    k0_pay12 v1 v3 v97 v99 W b i
      = max (k0_pay10 v1 v97 i * W (ix2 0 0) + k0_pay11 v3 v99 i * W (ix2 0 1) + b (ix1 0)) zero := by
  unfold k0_pay12
  simp only [weight00, weight01, weight10, weight11, bias0, bias1, mulf_apply, addf_apply, maximumf_apply, broadcast_apply]
  rfl

theorem pay13_apply (v1 v3 v97 v99 : Col) (W : Mat) (b : Bias) (i : S4096.Idx) :
    k0_pay13 v1 v3 v97 v99 W b i
      = max (k0_pay10 v1 v97 i * W (ix2 1 0) + k0_pay11 v3 v99 i * W (ix2 1 1) + b (ix1 1)) zero := by
  unfold k0_pay13
  simp only [weight00, weight01, weight10, weight11, bias0, bias1, mulf_apply, addf_apply, maximumf_apply, broadcast_apply]
  rfl

theorem pay14_apply (v1 v3 v97 v99 : Col) (W : Mat) (b : Bias) (W' : Mat) (b' : Bias) (i : S4096.Idx) :
    k0_pay14 v1 v3 v97 v99 W b W' b' i
      = k0_pay12 v1 v3 v97 v99 W b i * W' (ix2 0 0) + k0_pay13 v1 v3 v97 v99 W b i * W' (ix2 0 1) + b' (ix1 0) := by
  unfold k0_pay14
  simp only [weight00, weight01, weight10, weight11, bias0, bias1, mulf_apply, addf_apply, maximumf_apply, broadcast_apply]

theorem pay15_apply (W : Mat) (i : S4096.Idx) : k0_pay15 (F := Ideal) W i = W (ix2 1 0) := by
  unfold k0_pay15
  simp only [weight00, weight01, weight10, weight11, bias0, bias1, mulf_apply, addf_apply, maximumf_apply, broadcast_apply]

theorem pay16_apply (v100 v148 : Col) (i : S4096.Idx) : k0_pay16 v100 v148 i = max (v148 i) zero + v100 i := rfl

theorem pay17_apply (v101 v131 v133 : Col) (W : Mat) (b : Bias) (v151 : Col) (i : S4096.Idx) :
    k0_pay17 v101 v131 v133 W b v151 i = max (v131 i * v151 i + v133 i * W (ix2 1 1) + b (ix1 1)) zero + v101 i := by
  unfold k0_pay17
  simp only [weight00, weight01, weight10, weight11, bias0, bias1, mulf_apply, addf_apply, maximumf_apply, broadcast_apply]
  rfl

theorem pay18_apply (v100 v101 : Col) (W : Mat) (b : Bias) (i : S4096.Idx) :
    k0_pay18 v100 v101 W b i = max (v100 i * W (ix2 0 0) + v101 i * W (ix2 0 1) + b (ix1 0)) zero := by
  unfold k0_pay18
  simp only [weight00, weight01, weight10, weight11, bias0, bias1, mulf_apply, addf_apply, maximumf_apply, broadcast_apply]
  rfl

theorem pay19_apply (v100 v101 : Col) (W : Mat) (b : Bias) (i : S4096.Idx) :
    k0_pay19 v100 v101 W b i = max (v100 i * W (ix2 1 0) + v101 i * W (ix2 1 1) + b (ix1 1)) zero := by
  unfold k0_pay19
  simp only [weight00, weight01, weight10, weight11, bias0, bias1, mulf_apply, addf_apply, maximumf_apply, broadcast_apply]
  rfl

theorem pay20_apply (v100 v197 v199 : Col) (W : Mat) (b : Bias) (i : S4096.Idx) :
    k0_pay20 v100 v197 v199 W b i = max (v197 i * W (ix2 0 0) + v199 i * W (ix2 0 1) + b (ix1 0)) zero + v100 i := by
  unfold k0_pay20
  simp only [weight00, weight01, weight10, weight11, bias0, bias1, mulf_apply, addf_apply, maximumf_apply, broadcast_apply]
  rfl

theorem pay21_apply (v101 v197 v199 : Col) (W : Mat) (b : Bias) (i : S4096.Idx) :
    k0_pay21 v101 v197 v199 W b i = max (v197 i * W (ix2 1 0) + v199 i * W (ix2 1 1) + b (ix1 1)) zero + v101 i := by
  unfold k0_pay21
  simp only [weight00, weight01, weight10, weight11, bias0, bias1, mulf_apply, addf_apply, maximumf_apply, broadcast_apply]
  rfl

theorem pay22_apply (v166 v167 : Col) (W : Mat) (b : Bias) (i : S4096.Idx) :
    k0_pay22 v166 v167 W b i = v166 i * W (ix2 0 0) + v167 i * W (ix2 0 1) + b (ix1 0) := by
  unfold k0_pay22
  simp only [weight00, weight01, weight10, weight11, bias0, bias1, mulf_apply, addf_apply, maximumf_apply, broadcast_apply]

theorem pay23_apply (v166 : Col) (W : Mat) (i : S4096.Idx) : k0_pay23 v166 W i = v166 i * W (ix2 1 0) := by
  unfold k0_pay23
  simp only [weight00, weight01, weight10, weight11, bias0, bias1, mulf_apply, addf_apply, maximumf_apply, broadcast_apply]

theorem pay24_apply (v167 : Col) (W : Mat) (i : S4096.Idx) : k0_pay24 v167 W i = v167 i * W (ix2 1 1) := by
  unfold k0_pay24
  simp only [weight00, weight01, weight10, weight11, bias0, bias1, mulf_apply, addf_apply, maximumf_apply, broadcast_apply]

/-- The first stored column: the sum of the shared last map's entry 0 on the two branches, rectified. -/
theorem pay25_apply (v232 v233 v248 : Col) (W : Mat) (b : Bias) (p : Fin 4096) (u : Fin 1) :
    k0_pay25 v232 v233 v248 W b (ix2 p u)
      = max (v248 (ix1 p) + (v232 (ix1 p) * W (ix2 0 0) + v233 (ix1 p) * W (ix2 0 1) + b (ix1 0))) zero := by
  unfold k0_pay25
  simp only [vector_as_column, weight00, weight01, weight10, weight11, bias0, bias1, mulf_apply, addf_apply, maximumf_apply, broadcast_apply]
  rfl

/-- The second stored column: the same with entry 1. -/
theorem pay26_apply (v232 v233 : Col) (b8 : Bias) (v252 v256 : Col) (W : Mat) (b : Bias) (p : Fin 4096) (u : Fin 1) :
    k0_pay26 v232 v233 b8 v252 v256 W b (ix2 p u)
      = max (v252 (ix1 p) + v256 (ix1 p) + b8 (ix1 1) + (v232 (ix1 p) * W (ix2 1 0) + v233 (ix1 p) * W (ix2 1 1) + b (ix1 1))) zero := by
  unfold k0_pay26
  simp only [vector_as_column, weight00, weight01, weight10, weight11, bias0, bias1, mulf_apply, addf_apply, maximumf_apply, broadcast_apply]
  rfl

end Cert.KernelIdeal.Rows

end
-- ==== Proof.KernelBlock.lean ====
/-
  The block the kernel's body leaves.

  The body stores two columns side by side into its 4096×2 output block. Following its columns one after the other —
  each is an entry of an affine map of two earlier columns, a maximum with zero, or a sum with a skipped column —
  entry `p` of the first stored column is entry 0 of the specification's network at row `p` of the loaded block of `x`,
  and entry `p` of the second is its entry 1. The two stores tile the block, so the block left is the network applied to
  every row of the loaded block.
-/
import proofs.«102312_j29884382446070_2_alg».proof.Proof.KernelCols

noncomputable section

namespace Cert.KernelIdeal.Rows

open Cert.KernelIdeal Cert.KernelIdeal.Gen Idealize.ShloMosaic Idealize.ShloMosaic.ValueIdx
open Cert.RowNet

theorem zeros2 : (![0, 0] : Fin 2 → Nat) = fun _ => 0 := funext fun a => by fin_cases a <;> rfl
theorem zeros1 : (![0] : Fin 1 → Nat) = fun _ => 0 := funext fun a => by fin_cases a <;> rfl

/-- The first column the body loads is column 0 of the block; -/
theorem load_col0 (x0 : Vec Ideal S4096x2 .f32) (p : Fin 4096) : View.ld x0 r0_0 (ix2 p 0) = x0 (ix2 p 0) :=
  congrArg x0 (funext fun a => Fin.ext (by
    match a with
    | ⟨0, _⟩ => show 0 + 1 * p.val = p.val; omega
    | ⟨1, _⟩ => rfl))

/-- the second is column 1. -/
theorem load_col1 (x0 : Vec Ideal S4096x2 .f32) (p : Fin 4096) : View.ld x0 r0_1 (ix2 p 0) = x0 (ix2 p 1) :=
  congrArg x0 (funext fun a => Fin.ext (by
    match a with
    | ⟨0, _⟩ => show 0 + 1 * p.val = p.val; omega
    | ⟨1, _⟩ => rfl))

/-- The first store's rectangle is column 0 of the block: its entry `(p, ·)` is the block's `(p, 0)`; -/
theorem store_col0 (p : Fin 4096) (u : Fin 1) : r0_0.emb (ix2 p u) = (ix2 p 0 : S4096x2.Idx) :=
  funext fun a => Fin.ext (by
    have hu : u.val = 0 := by omega
    match a with
    | ⟨0, _⟩ => show 0 + 1 * p.val = p.val; omega
    | ⟨1, _⟩ => show 0 + 1 * u.val = 0; omega)

/-- the second store's is column 1. -/
theorem store_col1 (p : Fin 4096) (u : Fin 1) : r0_1.emb (ix2 p u) = (ix2 p 1 : S4096x2.Idx) :=
  funext fun a => Fin.ext (by
    have hu : u.val = 0 := by omega
    match a with
    | ⟨0, _⟩ => show 0 + 1 * p.val = p.val; omega
    | ⟨1, _⟩ => show 1 + 1 * u.val = 1; omega)

/-- THE BODY'S COLUMNS, ONE AFTER THE OTHER. With the body's intermediate columns named in the order it computes them
    (`c1`, `c3` the two columns of `x`; `c33`, `c35` the first layer; … `c232`, `c233` the second branch), entry `p` of the two
    stored columns is the network at row `p` of the block. -/
theorem stored_columns (P : Params) (x0 : Vec Ideal S4096x2 .f32) (v0 v2 : Vec Ideal S4096x1 .f32)
    (c1 c3 c33 c35 c46 c97 c99 c100 c101 c131 c133 c148 c151 c166 c167 c197 c199 c232 c233 c248 c252 c256 : Col)
    (hv0 : View.ld x0 r0_0 = v0) (hv2 : View.ld x0 r0_1 = v2)
    (h1 : k0_pay1 v0 = c1) (h3 : k0_pay2 v2 = c3)
    (h33 : k0_pay3 v0 v2 P.W1 P.b1 = c33) (h35 : k0_pay4 v0 v2 P.W1 P.b1 = c35)
    (h46 : k0_pay5 v0 v2 P.W1 P.b1 P.W2 = c46)
    (h97 : k0_pay8 c33 c35 P.W2 P.b2 c46 P.W3 P.b3 = c97) (h99 : k0_pay9 c33 c35 P.W2 P.b2 c46 P.W3 P.b3 = c99)
    (h100 : k0_pay10 c1 c97 = c100) (h101 : k0_pay11 c3 c99 = c101)
    (h131 : k0_pay12 c1 c3 c97 c99 P.W4 P.b4 = c131) (h133 : k0_pay13 c1 c3 c97 c99 P.W4 P.b4 = c133)
    (h148 : k0_pay14 c1 c3 c97 c99 P.W4 P.b4 P.W5 P.b5 = c148) (h151 : k0_pay15 (F := Ideal) P.W5 = c151)
    (h166 : k0_pay16 c100 c148 = c166) (h167 : k0_pay17 c101 c131 c133 P.W5 P.b5 c151 = c167)
    (h197 : k0_pay18 c100 c101 P.W6 P.b6 = c197) (h199 : k0_pay19 c100 c101 P.W6 P.b6 = c199)
    (h232 : k0_pay20 c100 c197 c199 P.W7 P.b7 = c232) (h233 : k0_pay21 c101 c197 c199 P.W7 P.b7 = c233)
    (h248 : k0_pay22 c166 c167 P.W8 P.b8 = c248) (h252 : k0_pay23 c166 P.W8 = c252) (h256 : k0_pay24 c167 P.W8 = c256)
    (p : Fin 4096) (u : Fin 1) :
    k0_pay25 c232 c233 c248 P.W8 P.b8 (ix2 p u) = net P (rowOf x0 p) 0
      ∧ k0_pay26 c232 c233 P.b8 c252 c256 P.W8 P.b8 (ix2 p u) = net P (rowOf x0 p) 1 := by
  -- the rows of the specification at row p of the block
  set X : Row := rowOf x0 p with hX
  set O1 : Row := relu (lin P.W1 P.b1 X) with hO1
  set A : Row := relu (lin P.W2 P.b2 O1) with hA
  set V : Row := trunk P X with hV
  set T2 : Row := relu (lin P.W4 P.b4 V) with hT2
  set L : Row := left P V with hL
  set T3 : Row := relu (lin P.W6 P.b6 V) with hT3
  set Rt : Row := right P V with hRt
  -- the two columns of x
  have e1 : c1 (ix1 p) = X 0 := by rw [← h1, pay1_apply, ← hv0]; exact load_col0 x0 p
  have e3 : c3 (ix1 p) = X 1 := by rw [← h3, pay2_apply, ← hv2]; exact load_col1 x0 p
  -- the trunk: three rectified affine maps and the skip
  have e33 : c33 (ix1 p) = O1 0 := by rw [← h33, pay3_apply, h1, h3, e1, e3]; rfl
  have e35 : c35 (ix1 p) = O1 1 := by rw [← h35, pay4_apply, h1, h3, e1, e3]; rfl
  have e46 : c46 (ix1 p) = O1 0 * P.W2 (ix2 0 0) + O1 1 * P.W2 (ix2 0 1) := by rw [← h46, pay5_apply, h33, h35, e33, e35]
  have e65 : k0_pay6 P.b2 c46 (ix1 p) = A 0 := by rw [pay6_apply, e46]; rfl
  have e67 : k0_pay7 c33 c35 P.W2 P.b2 (ix1 p) = A 1 := by rw [pay7_apply, e33, e35]; rfl
  have e97 : c97 (ix1 p) = relu (lin P.W3 P.b3 A) 0 := by rw [← h97, pay8_apply, e65, e67]; rfl
  have e99 : c99 (ix1 p) = relu (lin P.W3 P.b3 A) 1 := by rw [← h99, pay9_apply, e65, e67]; rfl
  have e100 : c100 (ix1 p) = V 0 := by rw [← h100, pay10_apply, e97, e1]; rfl
  have e101 : c101 (ix1 p) = V 1 := by rw [← h101, pay11_apply, e99, e3]; rfl
  -- the first branch
  have e131 : c131 (ix1 p) = T2 0 := by rw [← h131, pay12_apply, h100, h101, e100, e101]; rfl
  have e133 : c133 (ix1 p) = T2 1 := by rw [← h133, pay13_apply, h100, h101, e100, e101]; rfl
  have e148 : c148 (ix1 p) = lin P.W5 P.b5 T2 0 := by rw [← h148, pay14_apply, h131, h133, e131, e133]; rfl
  have e151 : c151 (ix1 p) = P.W5 (ix2 1 0) := by rw [← h151, pay15_apply]
  have e166 : c166 (ix1 p) = L 0 := by rw [← h166, pay16_apply, e148, e100]; rfl
  have e167 : c167 (ix1 p) = L 1 := by rw [← h167, pay17_apply, e131, e151, e133, e101]; rfl
  -- the second branch
  have e197 : c197 (ix1 p) = T3 0 := by rw [← h197, pay18_apply, e100, e101]; rfl
  have e199 : c199 (ix1 p) = T3 1 := by rw [← h199, pay19_apply, e100, e101]; rfl
  have e232 : c232 (ix1 p) = Rt 0 := by rw [← h232, pay20_apply, e197, e199, e100]; rfl
  have e233 : c233 (ix1 p) = Rt 1 := by rw [← h233, pay21_apply, e197, e199, e101]; rfl
  -- the shared last map on both branches
  have e248 : c248 (ix1 p) = lin P.W8 P.b8 L 0 := by rw [← h248, pay22_apply, e166, e167]; rfl
  have e252 : c252 (ix1 p) = L 0 * P.W8 (ix2 1 0) := by rw [← h252, pay23_apply, e166]
  have e256 : c256 (ix1 p) = L 1 * P.W8 (ix2 1 1) := by rw [← h256, pay24_apply, e167]
  constructor
  · rw [pay25_apply, e248, e232, e233]; rfl
  · rw [pay26_apply, e252, e256, e232, e233]; rfl

/-- THE BLOCK THE BODY LEAVES is the network applied to every row of the block of `x` it loaded. -/
theorem block_eq (x0 : Vec Ideal S4096x2 .f32) (W1 : Mat) (b1 : Bias) (W2 : Mat) (b2 : Bias) (W3 : Mat) (b3 : Bias)
    (W4 : Mat) (b4 : Bias) (W5 : Mat) (b5 : Bias) (W6 : Mat) (b6 : Bias) (W7 : Mat) (b7 : Bias) (W8 : Mat) (b8 : Bias) :
    out0_17 x0 W1 b1 W2 b2 W3 b3 W4 b4 W5 b5 W6 b6 W7 b7 W8 b8 = onRows ⟨W1, b1, W2, b2, W3, b3, W4, b4, W5, b5, W6, b6, W7, b7, W8, b8⟩ x0 := by
  funext y
  unfold out0_17
  simp only [View.ld_unit_zero (S := S2x2) zeros2, View.ld_unit_zero (S := S2) zeros1]
  generalize hv0 : View.ld x0 r0_0 = v0
  generalize hv2 : View.ld x0 r0_1 = v2
  generalize h1 : k0_pay1 v0 = c1
  generalize h3 : k0_pay2 v2 = c3
  generalize h33 : k0_pay3 v0 v2 W1 b1 = c33
  generalize h35 : k0_pay4 v0 v2 W1 b1 = c35
  generalize h46 : k0_pay5 v0 v2 W1 b1 W2 = c46
  generalize h97 : k0_pay8 c33 c35 W2 b2 c46 W3 b3 = c97
  generalize h99 : k0_pay9 c33 c35 W2 b2 c46 W3 b3 = c99
  generalize h100 : k0_pay10 c1 c97 = c100
  generalize h101 : k0_pay11 c3 c99 = c101
  generalize h131 : k0_pay12 c1 c3 c97 c99 W4 b4 = c131
  generalize h133 : k0_pay13 c1 c3 c97 c99 W4 b4 = c133
  generalize h148 : k0_pay14 c1 c3 c97 c99 W4 b4 W5 b5 = c148
  generalize h151 : k0_pay15 (F := Ideal) W5 = c151
  generalize h166 : k0_pay16 c100 c148 = c166
  generalize h167 : k0_pay17 c101 c131 c133 W5 b5 c151 = c167
  generalize h197 : k0_pay18 c100 c101 W6 b6 = c197
  generalize h199 : k0_pay19 c100 c101 W6 b6 = c199
  generalize h232 : k0_pay20 c100 c197 c199 W7 b7 = c232
  generalize h233 : k0_pay21 c101 c197 c199 W7 b7 = c233
  generalize h248 : k0_pay22 c166 c167 W8 b8 = c248
  generalize h252 : k0_pay23 c166 W8 = c252
  generalize h256 : k0_pay24 c167 W8 = c256
  refine View.canon_apply_of_pieces _ _ ?_ y (cover0_17 _ _ y)
  intro pc hpc x
  rcases List.mem_cons.mp hpc with rfl | hpc
  · obtain ⟨p, u, rfl⟩ : ∃ (p : Fin 4096) (u : Fin 1), x = ix2 p u := ⟨x 0, x 1, eq_ix2 x⟩
    show k0_pay26 c232 c233 b8 c252 c256 W8 b8 (ix2 p u) = onRows (⟨W1, b1, W2, b2, W3, b3, W4, b4, W5, b5, W6, b6, W7, b7, W8, b8⟩ : Params) x0 (r0_1.emb (ix2 p u))
    rw [store_col1, onRows_apply]
    exact (stored_columns (⟨W1, b1, W2, b2, W3, b3, W4, b4, W5, b5, W6, b6, W7, b7, W8, b8⟩ : Params) x0 v0 v2 c1 c3 c33 c35 c46 c97 c99 c100 c101 c131 c133 c148 c151 c166 c167 c197 c199 c232 c233 c248 c252 c256
      hv0 hv2 h1 h3 h33 h35 h46 h97 h99 h100 h101 h131 h133 h148 h151 h166 h167 h197 h199 h232 h233 h248 h252 h256 p u).2
  · obtain rfl := List.mem_singleton.mp hpc
    obtain ⟨p, u, rfl⟩ : ∃ (p : Fin 4096) (u : Fin 1), x = ix2 p u := ⟨x 0, x 1, eq_ix2 x⟩
    show k0_pay25 c232 c233 c248 W8 b8 (ix2 p u) = onRows (⟨W1, b1, W2, b2, W3, b3, W4, b4, W5, b5, W6, b6, W7, b7, W8, b8⟩ : Params) x0 (r0_0.emb (ix2 p u))
    rw [store_col0, onRows_apply]
    exact (stored_columns (⟨W1, b1, W2, b2, W3, b3, W4, b4, W5, b5, W6, b6, W7, b7, W8, b8⟩ : Params) x0 v0 v2 c1 c3 c33 c35 c46 c97 c99 c100 c101 c131 c133 c148 c151 c166 c167 c197 c199 c232 c233 c248 c252 c256
      hv0 hv2 h1 h3 h33 h35 h46 h97 h99 h100 h101 h131 h133 h148 h151 h166 h167 h197 h199 h232 h233 h248 h252 h256 p u).1

end Cert.KernelIdeal.Rows

end
-- ==== Proof.KernelArray.lean ====
/-
  The kernel's result array.

  Grid point `t` of 2048 loads rows `4096·t … 4096·t + 4095` of `x` and the eight weight matrices and biases whole, and writes
  back the same rows of the result. The block it writes is the network applied to every row of the block it loaded, and
  the network acts on each row on its own, so that block is rows `4096·t …` of the network applied to every row of `x`.
  The 2048 blocks tile the 8388608 rows (row `r` is in block `r / 4096`), so the result array is that array.
-/
import proofs.«102312_j29884382446070_2_alg».proof.Proof.Gen.KernelIdeal.Value
import proofs.«102312_j29884382446070_2_alg».proof.Proof.KernelBlock

noncomputable section

namespace Cert.KernelIdeal.Rows

open Cert.KernelIdeal Cert.KernelIdeal.Gen Cert.KernelIdeal.Value Idealize.ShloMosaic Idealize.ShloMosaic.ValueIdx
open Idealize.ShloMosaic.TcCoe Idealize.SL.Sem
open Idealize.ShloMosaic.Pipeline (Dat)
open Cert.RowNet

variable (m : (ℓ : Loc nD τ sig) → Buf (Elt Ideal) ℓ) (ρ : Dev nD → PrngReg)

/-! ## Where each point's blocks lie -/

/-- The blocks of `x` and of the result at point `t` are block row `t`, block column 0 (decided over the 2048 points). -/
theorem index_rows : ∀ t : Fin cfg0.N, win0_0.index t (0 : Fin 2) = t.val ∧ win0_0.index t (1 : Fin 2) = 0
    ∧ win0_17.index t (0 : Fin 2) = t.val ∧ win0_17.index t (1 : Fin 2) = 0 :=
  (by decide +kernel : ∀ t : Fin grid0.N, _)

/-- Every weight matrix's block is block (0, 0) at every point. -/
theorem index_mats : ∀ t : Fin cfg0.N,
    (win0_1.index t (0 : Fin 2) = 0 ∧ win0_1.index t (1 : Fin 2) = 0)
    ∧ (win0_3.index t (0 : Fin 2) = 0 ∧ win0_3.index t (1 : Fin 2) = 0)
    ∧ (win0_5.index t (0 : Fin 2) = 0 ∧ win0_5.index t (1 : Fin 2) = 0)
    ∧ (win0_7.index t (0 : Fin 2) = 0 ∧ win0_7.index t (1 : Fin 2) = 0)
    ∧ (win0_9.index t (0 : Fin 2) = 0 ∧ win0_9.index t (1 : Fin 2) = 0)
    ∧ (win0_11.index t (0 : Fin 2) = 0 ∧ win0_11.index t (1 : Fin 2) = 0)
    ∧ (win0_13.index t (0 : Fin 2) = 0 ∧ win0_13.index t (1 : Fin 2) = 0)
    ∧ (win0_15.index t (0 : Fin 2) = 0 ∧ win0_15.index t (1 : Fin 2) = 0) :=
  (by decide +kernel : ∀ t : Fin grid0.N, _)

/-- Every bias's block is block 0 at every point. -/
theorem index_biases : ∀ t : Fin cfg0.N,
    win0_2.index t (0 : Fin 1) = 0
    ∧ win0_4.index t (0 : Fin 1) = 0
    ∧ win0_6.index t (0 : Fin 1) = 0
    ∧ win0_8.index t (0 : Fin 1) = 0
    ∧ win0_10.index t (0 : Fin 1) = 0
    ∧ win0_12.index t (0 : Fin 1) = 0
    ∧ win0_14.index t (0 : Fin 1) = 0
    ∧ win0_16.index t (0 : Fin 1) = 0 :=
  (by decide +kernel : ∀ t : Fin grid0.N, _)

/-! ## The blocks a point loads -/

/-- Row `p` of the block of `x` at point `t` is row `4096·t + p` of `x`. -/
theorem block0_apply (c : Dev nD) (t : Fin cfg0.N) (p : Fin 4096) (k : Fin 2) (q : Fin 8388608) (hq : q.val = t.val * 4096 + p.val) :
    (iblk m c 0 t : Vec Ideal S4096x2 .f32) (ix2 p k) = (m ((c : Thread nD τ).loc main_arg0) : S8388608x2.Idx → Elt Ideal .f32) (ix2 q k) := by
  obtain ⟨h0, h1, -, -⟩ := index_rows t
  unfold iblk
  rw [View.read_apply]
  show V m c main_arg0 _ = m (c.tc.loc main_arg0) _
  unfold V
  refine congrArg _ (funext fun a => Fin.ext ?_)
  match a with
  | ⟨0, _⟩ => show win0_0.index t (0 : Fin 2) * 4096 + 1 * p.val = q.val; rw [h0, hq]; omega
  | ⟨1, _⟩ => show win0_0.index t (1 : Fin 2) * 2 + 1 * k.val = k.val; rw [h1]; omega

/-! Each weight matrix and bias is loaded whole. -/

theorem block1 (c : Dev nD) (t : Fin cfg0.N) :
    (iblk m c 1 t : Vec Ideal S2x2 .f32) = (m ((c : Thread nD τ).loc main_arg1) : S2x2.Idx → Elt Ideal .f32) := by
  obtain ⟨h0, h1⟩ := (index_mats t).1
  funext x
  unfold iblk
  rw [View.read_apply]
  show V m c main_arg1 _ = m (c.tc.loc main_arg1) _
  unfold V
  refine congrArg _ (funext fun a => Fin.ext ?_)
  match a with
  | ⟨0, _⟩ => show win0_1.index t (0 : Fin 2) * 2 + 1 * (x 0).val = (x 0).val; rw [h0]; omega
  | ⟨1, _⟩ => show win0_1.index t (1 : Fin 2) * 2 + 1 * (x 1).val = (x 1).val; rw [h1]; omega

theorem block3 (c : Dev nD) (t : Fin cfg0.N) :
    (iblk m c 3 t : Vec Ideal S2x2 .f32) = (m ((c : Thread nD τ).loc main_arg3) : S2x2.Idx → Elt Ideal .f32) := by
  obtain ⟨h0, h1⟩ := (index_mats t).2.1
  funext x
  unfold iblk
  rw [View.read_apply]
  show V m c main_arg3 _ = m (c.tc.loc main_arg3) _
  unfold V
  refine congrArg _ (funext fun a => Fin.ext ?_)
  match a with
  | ⟨0, _⟩ => show win0_3.index t (0 : Fin 2) * 2 + 1 * (x 0).val = (x 0).val; rw [h0]; omega
  | ⟨1, _⟩ => show win0_3.index t (1 : Fin 2) * 2 + 1 * (x 1).val = (x 1).val; rw [h1]; omega

theorem block5 (c : Dev nD) (t : Fin cfg0.N) :
    (iblk m c 5 t : Vec Ideal S2x2 .f32) = (m ((c : Thread nD τ).loc main_arg5) : S2x2.Idx → Elt Ideal .f32) := by
  obtain ⟨h0, h1⟩ := (index_mats t).2.2.1
  funext x
  unfold iblk
  rw [View.read_apply]
  show V m c main_arg5 _ = m (c.tc.loc main_arg5) _
  unfold V
  refine congrArg _ (funext fun a => Fin.ext ?_)
  match a with
  | ⟨0, _⟩ => show win0_5.index t (0 : Fin 2) * 2 + 1 * (x 0).val = (x 0).val; rw [h0]; omega
  | ⟨1, _⟩ => show win0_5.index t (1 : Fin 2) * 2 + 1 * (x 1).val = (x 1).val; rw [h1]; omega

theorem block7 (c : Dev nD) (t : Fin cfg0.N) :
    (iblk m c 7 t : Vec Ideal S2x2 .f32) = (m ((c : Thread nD τ).loc main_arg7) : S2x2.Idx → Elt Ideal .f32) := by
  obtain ⟨h0, h1⟩ := (index_mats t).2.2.2.1
  funext x
  unfold iblk
  rw [View.read_apply]
  show V m c main_arg7 _ = m (c.tc.loc main_arg7) _
  unfold V
  refine congrArg _ (funext fun a => Fin.ext ?_)
  match a with
  | ⟨0, _⟩ => show win0_7.index t (0 : Fin 2) * 2 + 1 * (x 0).val = (x 0).val; rw [h0]; omega
  | ⟨1, _⟩ => show win0_7.index t (1 : Fin 2) * 2 + 1 * (x 1).val = (x 1).val; rw [h1]; omega

theorem block9 (c : Dev nD) (t : Fin cfg0.N) :
    (iblk m c 9 t : Vec Ideal S2x2 .f32) = (m ((c : Thread nD τ).loc main_arg9) : S2x2.Idx → Elt Ideal .f32) := by
  obtain ⟨h0, h1⟩ := (index_mats t).2.2.2.2.1
  funext x
  unfold iblk
  rw [View.read_apply]
  show V m c main_arg9 _ = m (c.tc.loc main_arg9) _
  unfold V
  refine congrArg _ (funext fun a => Fin.ext ?_)
  match a with
  | ⟨0, _⟩ => show win0_9.index t (0 : Fin 2) * 2 + 1 * (x 0).val = (x 0).val; rw [h0]; omega
  | ⟨1, _⟩ => show win0_9.index t (1 : Fin 2) * 2 + 1 * (x 1).val = (x 1).val; rw [h1]; omega

theorem block11 (c : Dev nD) (t : Fin cfg0.N) :
    (iblk m c 11 t : Vec Ideal S2x2 .f32) = (m ((c : Thread nD τ).loc main_arg11) : S2x2.Idx → Elt Ideal .f32) := by
  obtain ⟨h0, h1⟩ := (index_mats t).2.2.2.2.2.1
  funext x
  unfold iblk
  rw [View.read_apply]
  show V m c main_arg11 _ = m (c.tc.loc main_arg11) _
  unfold V
  refine congrArg _ (funext fun a => Fin.ext ?_)
  match a with
  | ⟨0, _⟩ => show win0_11.index t (0 : Fin 2) * 2 + 1 * (x 0).val = (x 0).val; rw [h0]; omega
  | ⟨1, _⟩ => show win0_11.index t (1 : Fin 2) * 2 + 1 * (x 1).val = (x 1).val; rw [h1]; omega

theorem block13 (c : Dev nD) (t : Fin cfg0.N) :
    (iblk m c 13 t : Vec Ideal S2x2 .f32) = (m ((c : Thread nD τ).loc main_arg13) : S2x2.Idx → Elt Ideal .f32) := by
  obtain ⟨h0, h1⟩ := (index_mats t).2.2.2.2.2.2.1
  funext x
  unfold iblk
  rw [View.read_apply]
  show V m c main_arg13 _ = m (c.tc.loc main_arg13) _
  unfold V
  refine congrArg _ (funext fun a => Fin.ext ?_)
  match a with
  | ⟨0, _⟩ => show win0_13.index t (0 : Fin 2) * 2 + 1 * (x 0).val = (x 0).val; rw [h0]; omega
  | ⟨1, _⟩ => show win0_13.index t (1 : Fin 2) * 2 + 1 * (x 1).val = (x 1).val; rw [h1]; omega

theorem block15 (c : Dev nD) (t : Fin cfg0.N) :
    (iblk m c 15 t : Vec Ideal S2x2 .f32) = (m ((c : Thread nD τ).loc main_arg15) : S2x2.Idx → Elt Ideal .f32) := by
  obtain ⟨h0, h1⟩ := (index_mats t).2.2.2.2.2.2.2
  funext x
  unfold iblk
  rw [View.read_apply]
  show V m c main_arg15 _ = m (c.tc.loc main_arg15) _
  unfold V
  refine congrArg _ (funext fun a => Fin.ext ?_)
  match a with
  | ⟨0, _⟩ => show win0_15.index t (0 : Fin 2) * 2 + 1 * (x 0).val = (x 0).val; rw [h0]; omega
  | ⟨1, _⟩ => show win0_15.index t (1 : Fin 2) * 2 + 1 * (x 1).val = (x 1).val; rw [h1]; omega

theorem block2 (c : Dev nD) (t : Fin cfg0.N) :
    (iblk m c 2 t : Vec Ideal S2 .f32) = (m ((c : Thread nD τ).loc main_arg2) : S2.Idx → Elt Ideal .f32) := by
  have h0 := (index_biases t).1
  funext x
  unfold iblk
  rw [View.read_apply]
  show V m c main_arg2 _ = m (c.tc.loc main_arg2) _
  unfold V
  refine congrArg _ (funext fun a => Fin.ext ?_)
  match a with
  | ⟨0, _⟩ => show win0_2.index t (0 : Fin 1) * 2 + 1 * (x 0).val = (x 0).val; rw [h0]; omega

theorem block4 (c : Dev nD) (t : Fin cfg0.N) :
    (iblk m c 4 t : Vec Ideal S2 .f32) = (m ((c : Thread nD τ).loc main_arg4) : S2.Idx → Elt Ideal .f32) := by
  have h0 := (index_biases t).2.1
  funext x
  unfold iblk
  rw [View.read_apply]
  show V m c main_arg4 _ = m (c.tc.loc main_arg4) _
  unfold V
  refine congrArg _ (funext fun a => Fin.ext ?_)
  match a with
  | ⟨0, _⟩ => show win0_4.index t (0 : Fin 1) * 2 + 1 * (x 0).val = (x 0).val; rw [h0]; omega

theorem block6 (c : Dev nD) (t : Fin cfg0.N) :
    (iblk m c 6 t : Vec Ideal S2 .f32) = (m ((c : Thread nD τ).loc main_arg6) : S2.Idx → Elt Ideal .f32) := by
  have h0 := (index_biases t).2.2.1
  funext x
  unfold iblk
  rw [View.read_apply]
  show V m c main_arg6 _ = m (c.tc.loc main_arg6) _
  unfold V
  refine congrArg _ (funext fun a => Fin.ext ?_)
  match a with
  | ⟨0, _⟩ => show win0_6.index t (0 : Fin 1) * 2 + 1 * (x 0).val = (x 0).val; rw [h0]; omega

theorem block8 (c : Dev nD) (t : Fin cfg0.N) :
    (iblk m c 8 t : Vec Ideal S2 .f32) = (m ((c : Thread nD τ).loc main_arg8) : S2.Idx → Elt Ideal .f32) := by
  have h0 := (index_biases t).2.2.2.1
  funext x
  unfold iblk
  rw [View.read_apply]
  show V m c main_arg8 _ = m (c.tc.loc main_arg8) _
  unfold V
  refine congrArg _ (funext fun a => Fin.ext ?_)
  match a with
  | ⟨0, _⟩ => show win0_8.index t (0 : Fin 1) * 2 + 1 * (x 0).val = (x 0).val; rw [h0]; omega

theorem block10 (c : Dev nD) (t : Fin cfg0.N) :
    (iblk m c 10 t : Vec Ideal S2 .f32) = (m ((c : Thread nD τ).loc main_arg10) : S2.Idx → Elt Ideal .f32) := by
  have h0 := (index_biases t).2.2.2.2.1
  funext x
  unfold iblk
  rw [View.read_apply]
  show V m c main_arg10 _ = m (c.tc.loc main_arg10) _
  unfold V
  refine congrArg _ (funext fun a => Fin.ext ?_)
  match a with
  | ⟨0, _⟩ => show win0_10.index t (0 : Fin 1) * 2 + 1 * (x 0).val = (x 0).val; rw [h0]; omega

theorem block12 (c : Dev nD) (t : Fin cfg0.N) :
    (iblk m c 12 t : Vec Ideal S2 .f32) = (m ((c : Thread nD τ).loc main_arg12) : S2.Idx → Elt Ideal .f32) := by
  have h0 := (index_biases t).2.2.2.2.2.1
  funext x
  unfold iblk
  rw [View.read_apply]
  show V m c main_arg12 _ = m (c.tc.loc main_arg12) _
  unfold V
  refine congrArg _ (funext fun a => Fin.ext ?_)
  match a with
  | ⟨0, _⟩ => show win0_12.index t (0 : Fin 1) * 2 + 1 * (x 0).val = (x 0).val; rw [h0]; omega

theorem block14 (c : Dev nD) (t : Fin cfg0.N) :
    (iblk m c 14 t : Vec Ideal S2 .f32) = (m ((c : Thread nD τ).loc main_arg14) : S2.Idx → Elt Ideal .f32) := by
  have h0 := (index_biases t).2.2.2.2.2.2.1
  funext x
  unfold iblk
  rw [View.read_apply]
  show V m c main_arg14 _ = m (c.tc.loc main_arg14) _
  unfold V
  refine congrArg _ (funext fun a => Fin.ext ?_)
  match a with
  | ⟨0, _⟩ => show win0_14.index t (0 : Fin 1) * 2 + 1 * (x 0).val = (x 0).val; rw [h0]; omega

theorem block16 (c : Dev nD) (t : Fin cfg0.N) :
    (iblk m c 16 t : Vec Ideal S2 .f32) = (m ((c : Thread nD τ).loc main_arg16) : S2.Idx → Elt Ideal .f32) := by
  have h0 := (index_biases t).2.2.2.2.2.2.2
  funext x
  unfold iblk
  rw [View.read_apply]
  show V m c main_arg16 _ = m (c.tc.loc main_arg16) _
  unfold V
  refine congrArg _ (funext fun a => Fin.ext ?_)
  match a with
  | ⟨0, _⟩ => show win0_16.index t (0 : Fin 1) * 2 + 1 * (x 0).val = (x 0).val; rw [h0]; omega

/-! ## What a point writes back, and the array -/

/-- The eight affine maps as the kernel's arguments hold them. -/
abbrev params (c : Dev nD) : Params :=
  ⟨m ((c : Thread nD τ).loc main_arg1),
   m ((c : Thread nD τ).loc main_arg2),
   m ((c : Thread nD τ).loc main_arg3),
   m ((c : Thread nD τ).loc main_arg4),
   m ((c : Thread nD τ).loc main_arg5),
   m ((c : Thread nD τ).loc main_arg6),
   m ((c : Thread nD τ).loc main_arg7),
   m ((c : Thread nD τ).loc main_arg8),
   m ((c : Thread nD τ).loc main_arg9),
   m ((c : Thread nD τ).loc main_arg10),
   m ((c : Thread nD τ).loc main_arg11),
   m ((c : Thread nD τ).loc main_arg12),
   m ((c : Thread nD τ).loc main_arg13),
   m ((c : Thread nD τ).loc main_arg14),
   m ((c : Thread nD τ).loc main_arg15),
   m ((c : Thread nD τ).loc main_arg16)⟩

/-- The network applied to every row of `x`. -/
abbrev result (c : Dev nD) : S8388608x2.Idx → Elt Ideal .f32 := onRows (params m c) (m ((c : Thread nD τ).loc main_arg0))

/-- WHAT POINT `t` WRITES BACK is block `t` of the network applied to every row of `x`. -/
theorem flushed_eq (c : Dev nD) (t : Fin cfg0.N) :
    (dats m 0 c).flushed 17 t = ((cfg0.win 17).blk t).view.read (Elt Ideal) (result m c) := by
  rw [Value.flushed17, block_eq]
  rw [block1 m c t, block2 m c t, block3 m c t, block4 m c t, block5 m c t, block6 m c t, block7 m c t, block8 m c t, block9 m c t, block10 m c t, block11 m c t, block12 m c t, block13 m c t, block14 m c t, block15 m c t, block16 m c t]
  have ht : t.val < 2048 := by have := t.isLt; have hN : cfg0.N = 2048 := N_0; omega
  obtain ⟨-, -, h0, h1⟩ := index_rows t
  funext j
  obtain ⟨p, k, rfl⟩ : ∃ (p : Fin 4096) (k : Fin 2), j = ix2 p k := ⟨j 0, j 1, eq_ix2 j⟩
  have he : ((cfg0.win 17).blk t).view.emb (ix2 p k) = (ix2 (⟨t.val * 4096 + p.val, by omega⟩ : Fin 8388608) k : S8388608x2.Idx) :=
    funext fun a => Fin.ext (by
      match a with
      | ⟨0, _⟩ => show win0_17.index t (0 : Fin 2) * 4096 + 1 * p.val = t.val * 4096 + p.val; rw [h0]; omega
      | ⟨1, _⟩ => show win0_17.index t (1 : Fin 2) * 2 + 1 * k.val = k.val; rw [h1]; omega)
  show onRows (params m c) (iblk m c 0 t) (ix2 p k) = result m c (((cfg0.win 17).blk t).view.emb (ix2 p k))
  rw [he]
  show net (params m c) (rowOf (iblk m c 0 t) p) k = net (params m c) (rowOf (m ((c : Thread nD τ).loc main_arg0)) ⟨t.val * 4096 + p.val, by omega⟩) k
  refine congrArg (fun r => net (params m c) r k) (funext fun k' => ?_)
  exact block0_apply m c t p k' _ rfl

/-- An index of the array is in point `t`'s block iff each coordinate is in the block's range on its axis. -/
theorem mem_block (t : Fin cfg0.N) (i : S8388608x2.Idx) :
    i ∈ ((cfg0.win 17).blk t).view.set ↔ ∀ a : Fin 2, win0_17.index t a * S4096x2.size a ≤ (i a).val ∧ (i a).val < win0_17.index t a * S4096x2.size a + S4096x2.size a := by
  show i ∈ ((View.whole main_v0).slice (win0_17.rect t)).set ↔ _
  rw [View.set_slice_whole, Rect.mem_set_unit]
  exact Iff.rfl

/-- Row `r` of the array is in the block of point `r / 4096`. -/
theorem covered (i : S8388608x2.Idx) :
    ∃ t : Fin cfg0.N, (cfg0.win 17).flush t = true ∧ i ∈ ((cfg0.win 17).blk t).view.set := by
  have hi0 : (i 0).val < 8388608 := (i 0).isLt
  have hi1 : (i 1).val < 2 := (i 1).isLt
  have hN : cfg0.N = 2048 := N_0
  obtain ⟨t, ht⟩ : ∃ t : Fin cfg0.N, t.val = (i 0).val / 4096 := ⟨⟨(i 0).val / 4096, by rw [hN]; omega⟩, rfl⟩
  obtain ⟨-, -, h0, h1⟩ := index_rows t
  refine ⟨t, flush0_17 t, ?_⟩
  rw [mem_block]
  intro a
  match a with
  | ⟨0, _⟩ => show win0_17.index t (0 : Fin 2) * 4096 ≤ (i 0).val ∧ (i 0).val < win0_17.index t (0 : Fin 2) * 4096 + 4096; rw [h0, ht]; omega
  | ⟨1, _⟩ => show win0_17.index t (1 : Fin 2) * 2 ≤ (i 1).val ∧ (i 1).val < win0_17.index t (1 : Fin 2) * 2 + 2; rw [h1]; omega

/-- THE RESULT ARRAY after the run is the network applied to every row of `x`. -/
theorem final (c : Dev nD) : (dats m 0 c).arrAt 17 cfg0.N = result m c :=
  (dats m 0 c).arrAt_eq_of_cover 17 (result m c) (fun t _ => flushed_eq m c t) covered

/-- The kernel's run: the result array ends at the network applied to every row of `x`, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun r h c => ⟨(h c).1.trans (final m c), (h c).2⟩) (Value.run_blocks m ρ)

end Cert.KernelIdeal.Rows

end
-- ==== Proof.RefRows.lean ====
/-
  The reference program read row by row.

  Each of its layers is `U ↦ U · Wᵀ + b` on the whole N×2 array (a transpose of W, a product contracting U's second
  axis with the transposed matrix's first, the bias spread down the rows), followed — for all but the last two — by a maximum
  with an array of zeros. Entry `(p, j)` of such a layer is `∑ k : Fin 2, U[p,k]·W[j,k] + b[j]`, that is entry `j` of
  the affine map of the specification at row `p` of `U`. So row `p` of every intermediate array is a function of row
  `p` of the input alone, and row `p` of the result is the specification's network at row `p` of `x`.
-/
import proofs.«102312_j29884382446070_2_alg».proof.Proof.Gen.ReferenceIdeal.Read
import proofs.«102312_j29884382446070_2_alg».proof.Proof.RowNet

noncomputable section

namespace Cert.ReferenceIdeal.Rows

open Cert.ReferenceIdeal Cert.ReferenceIdeal.Gen Cert.ReferenceIdeal.Read Idealize.ShloMosaic Idealize.ShloMosaic.ValueIdx
open Cert.RowNet

/-- An N×2 array of extended reals. -/
abbrev Arr := FVec Ideal S8388608x2 .f32

/-- One affine layer of the reference on the whole array: `U · Wᵀ + b`. -/
abbrev affine (U : Arr) (W : Mat) (b : Bias) : Arr := val_main_v4 (F := Ideal) U W b

/-- The array of zeros the reference's rectifier compares with. -/
abbrev zeros : Arr := val_main_call0_v0 (F := Ideal)

/-- The reference's rectifier on the whole array. -/
abbrev rect (Y : Arr) : Arr := maximumf (F := Ideal) (φ := .f32) Y zeros

/-- Entry `(p, j)` of an affine layer: the sum over the two columns of row `p` against row `j` of `W`, plus `b[j]`. -/
theorem affine_apply (U : Arr) (W : Mat) (b : Bias) (p : Fin 8388608) (j : Fin 2) :
    affine U W b (ix2 p j) = lin W b (rowOf U p) j := by
  show val_main_v4 (F := Ideal) U W b (ix2 p j) = _
  rw [val_main_v4_apply, val_main_v1_apply, val_main_v3_apply, val_main_v2_apply, Fin.sum_univ_two,
    val_main_v0_apply, val_main_v0_apply]
  have l0 : lidx_main_v1 (ix2 p j) 0 = ix2 p 0 := funext fun a => Fin.ext (by match a with | ⟨0, _⟩ => rfl | ⟨1, _⟩ => rfl)
  have l1 : lidx_main_v1 (ix2 p j) 1 = ix2 p 1 := funext fun a => Fin.ext (by match a with | ⟨0, _⟩ => rfl | ⟨1, _⟩ => rfl)
  have r0 : idx_main_v0 (ridx_main_v1 (ix2 p j) 0) = ix2 j 0 := funext fun a => Fin.ext (by match a with | ⟨0, _⟩ => rfl | ⟨1, _⟩ => rfl)
  have r1 : idx_main_v0 (ridx_main_v1 (ix2 p j) 1) = ix2 j 1 := funext fun a => Fin.ext (by match a with | ⟨0, _⟩ => rfl | ⟨1, _⟩ => rfl)
  have eb : idx_main_v2 (idx_main_v3 (ix2 p j)) = ix1 j := funext fun a => Fin.ext (by match a with | ⟨0, _⟩ => rfl)
  rw [l0, l1, r0, r1, eb]
  rfl

/-- Row `p` of an affine layer is the affine map at row `p` of its operand. -/
theorem rowOf_affine (U : Arr) (W : Mat) (b : Bias) (p : Fin 8388608) :
    rowOf (affine U W b) p = lin W b (rowOf U p) := funext fun j => affine_apply U W b p j

/-- Every entry of the array of zeros is the f32 pattern of +0. -/
theorem zeros_apply (i : S8388608x2.Idx) : zeros i = zero := by
  show val_main_call0_v0 (F := Ideal) i = _
  rw [val_main_call0_v0_apply, val_main_call0_cst_apply]
  rfl

/-- Row `p` of a rectified array is the rectified row `p`. -/
theorem rowOf_rect (Y : Arr) (p : Fin 8388608) : rowOf (rect Y) p = relu (rowOf Y p) := funext fun j => by
  show max (Y (ix2 p j)) (zeros (ix2 p j)) = max (Y (ix2 p j)) zero
  rw [zeros_apply]

/-- Row `p` of a sum of arrays is the sum of the rows. -/
theorem rowOf_addf (Y Z : Arr) (p : Fin 8388608) : rowOf (addf (F := Ideal) (φ := .f32) Y Z) p = add (rowOf Y p) (rowOf Z p) := rfl

/-- The reference's trunk on the whole array. -/
abbrev trunkArr (P : Params) (X : Arr) : Arr :=
  addf (F := Ideal) (φ := .f32) (rect (affine (rect (affine (rect (affine X P.W1 P.b1)) P.W2 P.b2)) P.W3 P.b3)) X

/-- ROW `p` OF THE REFERENCE'S RESULT is the network of the specification at row `p` of `x`. -/
theorem rowOf_result (P : Params) (X : Arr) (p : Fin 8388608) :
    rowOf (val_main_v56 (F := Ideal) X P.W1 P.b1 P.W2 P.b2 P.W3 P.b3 P.W4 P.b4 P.W5 P.b5 P.W6 P.b6 P.W7 P.b7 P.W8 P.b8) p
      = net P (rowOf X p) := by
  show rowOf (rect (addf (F := Ideal) (φ := .f32)
      (affine (addf (F := Ideal) (φ := .f32) (rect (affine (rect (affine (trunkArr P X) P.W4 P.b4)) P.W5 P.b5)) (trunkArr P X)) P.W8 P.b8)
      (affine (addf (F := Ideal) (φ := .f32) (rect (affine (rect (affine (trunkArr P X) P.W6 P.b6)) P.W7 P.b7)) (trunkArr P X)) P.W8 P.b8))) p = _
  simp only [rowOf_rect, rowOf_addf, rowOf_affine]
  rfl

/-- THE REFERENCE'S RESULT is the network applied to every row of `x`. -/
theorem result_eq (P : Params) (X : Arr) :
    val_main_v56 (F := Ideal) X P.W1 P.b1 P.W2 P.b2 P.W3 P.b3 P.W4 P.b4 P.W5 P.b5 P.W6 P.b6 P.W7 P.b7 P.W8 P.b8 = onRows P X := by
  funext i
  obtain ⟨p, j, rfl⟩ : ∃ (p : Fin 8388608) (j : Fin 2), i = ix2 p j := ⟨i 0, i 1, eq_ix2 i⟩
  rw [onRows_apply, ← rowOf_result]
  rfl

end Cert.ReferenceIdeal.Rows

end
-- ==== Proof.lean ====
/-
  A chain of 2×2 affine maps with rectifiers and skip connections, applied to each of 8388608 rows of an N×2 array:
  the kernel against its reference, over the extended reals.

  The specification (Proof/RowNet.lean) is the network on ONE row, `net P x`, and `onRows P X`, the network applied to every
  row of `X`. Both programs compute exactly that array:
  * the reference (Proof/RefRows.lean) layer by layer on the whole array — each layer's entry `(p, j)` is
    `∑ k : Fin 2, U[p,k]·W[j,k] + b[j]`, the affine map of the specification at row `p`;
  * the kernel (Proof/KernelCols.lean, KernelBlock.lean, KernelArray.lean) block by block — 2048 blocks of 4096 rows, the body
    working on the two columns of a block as vectors with the weights read as scalars; the block it writes is the network on
    every row of the block it loaded, and the blocks tile the array.
  The only law used is `∑ k : Fin 2, f k = f 0 + f 1`: the two programs add in the same order, so nothing depends on the
  inputs being finite. The kernel's idealization rewrote nothing, so `preserves` is trivial.
  The three frames are the generated ones (the reference's is its generated run with the result dropped).
-/
import proofs.«102312_j29884382446070_2_alg».proof.Defs
import proofs.«102312_j29884382446070_2_alg».proof.Proof.Gen.Kernel
import proofs.«102312_j29884382446070_2_alg».proof.Proof.Gen.Kernel.Skeleton
import proofs.«102312_j29884382446070_2_alg».proof.Proof.Gen.Kernel.Launch
import proofs.«102312_j29884382446070_2_alg».proof.Proof.Gen.Kernel.Points
import proofs.«102312_j29884382446070_2_alg».proof.Proof.Gen.Kernel.Frame
import proofs.«102312_j29884382446070_2_alg».proof.Proof.Gen.KernelIdeal
import proofs.«102312_j29884382446070_2_alg».proof.Proof.Gen.KernelIdeal.Skeleton
import proofs.«102312_j29884382446070_2_alg».proof.Proof.Gen.KernelIdeal.Launch
import proofs.«102312_j29884382446070_2_alg».proof.Proof.Gen.KernelIdeal.Points
import proofs.«102312_j29884382446070_2_alg».proof.Proof.Gen.KernelIdeal.Frame
import proofs.«102312_j29884382446070_2_alg».proof.Proof.Gen.ReferenceIdeal
import proofs.«102312_j29884382446070_2_alg».proof.Proof.Gen.Pre_finite_inputs
import proofs.«102312_j29884382446070_2_alg».proof.Proof.Gen.KernelIdeal.Value
import proofs.«102312_j29884382446070_2_alg».proof.Proof.Gen.ReferenceIdeal.Run
import proofs.«102312_j29884382446070_2_alg».proof.Proof.Gen.ReferenceIdeal.Read
import proofs.«102312_j29884382446070_2_alg».proof.Proof.KernelArray
import proofs.«102312_j29884382446070_2_alg».proof.Proof.RefRows
import Idealize.ShloMosaic.Adequacy
import Idealize.ShloMosaic.Init

noncomputable section

namespace Cert.Proof

open Idealize.ShloMosaic Idealize.ShloMosaic.TcCoe Idealize.SL.Sem

/-- The word-level kernel runs and leaves its arguments unchanged: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments unchanged: its generated run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the network applied to every row of `x`: the kernel's result array block by block, the
    reference's layer by layer, from arguments that agree. -/
theorem algebraic : Cert.algebraic_KernelIdeal_ReferenceIdeal := by
  intro m ρ m' ρ' _ hagree
  refine ⟨fun c => Cert.KernelIdeal.Rows.result m c, Cert.KernelIdeal.Rows.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v56_eq]
  obtain ⟨a0, a1, a2, a3, a4, a5, a6, a7, a8, a9, a10, a11, a12, a13, a14, a15, a16⟩ := hagree c
  rw [a0, a1, a2, a3, a4, a5, a6, a7, a8, a9, a10, a11, a12, a13, a14, a15, a16]
  exact Cert.ReferenceIdeal.Rows.result_eq (Cert.KernelIdeal.Rows.params m c) _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
